-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S3x64x64 : Shape := ⟨3, ![3, 64, 64]⟩
abbrev S3x64 : Shape := ⟨2, ![3, 64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S3x64 .f32) (main_arg6 : FVec F S1x64 .f32) (main_arg7 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000 .f32) (main_arg3 : FVec F S3x64x64 .f32) (main_arg4 : FVec F S3x64x64 .f32) (main_arg5 : FVec F S3x64 .f32) (main_arg6 : FVec F S1x64 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S3x64x64 : Shape := ⟨3, ![3, 64, 64]⟩
abbrev S3x64 : Shape := ⟨2, ![3, 64]⟩
abbrev S1x64 : Shape := ⟨2, ![1, 64]⟩
abbrev S1 : Shape := ⟨1, ![1]⟩
abbrev S1x1600000 : Shape := ⟨2, ![1, 1600000]⟩
abbrev S64x1 : Shape := ⟨2, ![64, 1]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S64 : Shape := ⟨1, ![64]⟩
abbrev S10000x64 : Shape := ⟨2, ![10000, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 85
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S1x64, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S3x64x64, .f32⟩
  | .hbm, ⟨13, _⟩ => ⟨S3x64x64, .f32⟩
  | .hbm, ⟨14, _⟩ => ⟨S64x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x1, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64x64, .f32⟩
  | .hbm, ⟨32, _⟩ => ⟨S64x64, .f32⟩
  | .hbm, ⟨33, _⟩ => ⟨S1x64x64, .f32⟩
  | .hbm, ⟨34, _⟩ => ⟨S64x64, .f32⟩
  | .hbm, ⟨35, _⟩ => ⟨S1x64, .f32⟩
  | .hbm, ⟨36, _⟩ => ⟨S64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64x64, .f32⟩
  | .hbm, ⟨55, _⟩ => ⟨S64x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64x64, .f32⟩
  | .hbm, ⟨78, _⟩ => ⟨S64x64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S100000x64, .f32⟩
  | .hbm, ⟨84, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x1, .f32⟩
  | .local _ .vmem, ⟨30, _⟩ => ⟨S1, .f32⟩
  | .local _ .vmem, ⟨31, _⟩ => ⟨S10000x1, .f32⟩
  | .local _ .vmem, ⟨32, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_4 : Ref sig .tc := ⟨.hbm, 61, rfl⟩
abbrev main_v47 : Ref sig .tc := ⟨.hbm, 62, rfl⟩
abbrev main_v48 : Ref sig .tc := ⟨.hbm, 63, rfl⟩
abbrev main_c_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S3x64x64_S3x64x64_0_2_1 : S3x64x64.Transposes [0, 2, 1] S3x64x64
  transposes_S1x64_S64x1_1_0 : S1x64.Transposes [1, 0] S64x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S100000x1.size a
  hwx3_3 : ∀ i : grid3.Coords, EltTy.bits .f32 = 32 ∨ (Rect.block (s := S100000x1) S10000x1.size (cc3_transform_3 i) (hinb3_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v19) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S3x64x64 : Shape := ⟨3, ![3, 64, 64]⟩
abbrev S3x64 : Shape := ⟨2, ![3, 64]⟩
abbrev S1x64 : Shape := ⟨2, ![1, 64]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S1x64, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64x64, .f32⟩
  | .hbm, ⟨29, _⟩ => ⟨S64x64, .f32⟩
  | .hbm, ⟨30, _⟩ => ⟨S64x64, .f32⟩
  | .hbm, ⟨31, _⟩ => ⟨S100000x64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S1x64x64, .f32⟩
  | .hbm, ⟨38, _⟩ => ⟨S64x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64x64, .f32⟩
  | .hbm, ⟨62, _⟩ => ⟨S64x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S1x64x64, .f32⟩
  | .hbm, ⟨71, _⟩ => ⟨S64x64, .f32⟩
  | .hbm, ⟨72, _⟩ => ⟨S64x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S1600000x1, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64x64, .f32⟩
  | .hbm, ⟨95, _⟩ => ⟨S64x64, .f32⟩
  | .hbm, ⟨96, _⟩ => ⟨S64x64, .f32⟩
  | .hbm, ⟨97, _⟩ => ⟨S100000x64, .f32⟩
  | .hbm, ⟨98, _⟩ => ⟨S1x64, .f32⟩
  | .hbm, ⟨99, _⟩ => ⟨S64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S1x64x64, .f32⟩
  | .hbm, ⟨104, _⟩ => ⟨S64x64, .f32⟩
  | .hbm, ⟨105, _⟩ => ⟨S64x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S64x1, .f32⟩
  | .hbm, ⟨112, _⟩ => ⟨S100000x1, .f32⟩
  | .hbm, ⟨113, _⟩ => ⟨S1x1, .f32⟩
  | .hbm, ⟨114, _⟩ => ⟨S100000x1, .f32⟩
  | .hbm, ⟨115, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_c_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_v59 : Ref sig .tc := ⟨.hbm, 77, rfl⟩
abbrev main_c_4 : Ref sig .tc := ⟨.hbm, 78, rfl⟩
abbrev main_v60 : Ref sig .tc := ⟨.hbm, 79, rfl⟩
abbrev main_v61 : Ref sig .tc := ⟨.hbm, 80, rfl⟩
abbrev main_c_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_call2_cst : Ref sig .tc := ⟨.hbm, 108, rfl⟩
abbrev main_call2_v0 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The whole program's run with its result array named.

  From any launch memory every weakly fair execution of the program ends, nothing faulting, with the argument arrays
  as launched and the result array at the contents the last region leaves in it: the contents of every buffer at each
  boundary between the host stretches and the four regions are a fold from the launch memory (`W0` … `W7`), and the
  final state is read against the last of them. The frame claim reads only the arguments out of that final state; here
  the result buffer is read out of it as well.
-/
import proofs.«146473_j62079457296460_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as launched. -/
theorem run_result : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Result

end
-- ==== Proof.KAgg.lean ====
/-
  The aggregation step as the kernel's host program spells it, and the layer parameters as it lays them out.

  From the 2 × 1600000 edge list the first row (sources) and the second row (destinations) are cut and flattened; a
  negative source index is wrapped by adding 100000; the feature rows of the sources are gathered, each scaled by its
  edge's weight (the weight spread along the 64 channels), and scatter-added into a zero 100000 × 64 array at the
  destinations. `kagg h e ea` is that array as a function of the features `h`, the edge list `e` and the edge weights
  `ea`. The stacked weights are transposed once per matrix (last two axes swapped) and layer `l`'s matrix is then cut out
  and its leading unit axis dropped; the bias rows are cut out the same way; the output weight row is transposed to a column.
-/
import proofs.«146473_j62079457296460_1_alg».proof.Proof.Gen.KernelIdeal
import Idealize.ShloMosaic.PureOps.Ideal

noncomputable section

namespace Cert.KAgg

open Cert.KernelIdeal Cert.KernelIdeal.Gen Idealize.ShloMosaic

/-- The aggregate rows of features `h` over the edge list `e` with edge weights `ea`. -/
def kagg (h : FVec Ideal S100000x64 .f32) (e : IVec S2x1600000 32) (ea : FVec Ideal S1600000 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (mulf
      (Host.gather gather_S100000x64_S1600000x1_S1600000x64_1_0_n_n_0_1_164 h
        (broadcastInDim S1600000x1 ![0] bcast_S1600000_S1600000x1_0
          (select
            (cmpi .slt (shapeCast S1600000 (extractStridedSlice S1x1600000 ![0, 0] e slices_S2x1600000_S1x1600000_0_0) shapeCasts_S1x1600000_S1600000)
              (broadcastInDim S1600000 ![] bcast_S_S1600000 (constantI S_ 32 0#32)))
            (addi (shapeCast S1600000 (extractStridedSlice S1x1600000 ![0, 0] e slices_S2x1600000_S1x1600000_0_0) shapeCasts_S1x1600000_S1600000)
              (broadcastInDim S1600000 ![] bcast_S_S1600000 (constantI S_ 32 100000#32)))
            (shapeCast S1600000 (extractStridedSlice S1x1600000 ![0, 0] e slices_S2x1600000_S1x1600000_0_0) shapeCasts_S1x1600000_S1600000))))
      (broadcastInDim S1600000x64 ![0, 1] bcast_S1600000x1_S1600000x64_0_1
        (broadcastInDim S1600000x1 ![0] bcast_S1600000_S1600000x1_0 ea)))

/-- Layer 0's matrix out of a stack, in the kernel's layout (input channel, output channel). -/
def mat0 (w : FVec Ideal S3x64x64 .f32) : FVec Ideal S64x64 .f32 :=
  shapeCast S64x64 (extractStridedSlice S1x64x64 ![0, 0, 0] (transpose S3x64x64 [0, 2, 1] w transposes_S3x64x64_S3x64x64_0_2_1) slices_S3x64x64_S1x64x64_0_0_0) shapeCasts_S1x64x64_S64x64
/-- Layer 1's matrix. -/
def mat1 (w : FVec Ideal S3x64x64 .f32) : FVec Ideal S64x64 .f32 :=
  shapeCast S64x64 (extractStridedSlice S1x64x64 ![1, 0, 0] (transpose S3x64x64 [0, 2, 1] w transposes_S3x64x64_S3x64x64_0_2_1) slices_S3x64x64_S1x64x64_1_0_0) shapeCasts_S1x64x64_S64x64
/-- Layer 2's matrix. -/
def mat2 (w : FVec Ideal S3x64x64 .f32) : FVec Ideal S64x64 .f32 :=
  shapeCast S64x64 (extractStridedSlice S1x64x64 ![2, 0, 0] (transpose S3x64x64 [0, 2, 1] w transposes_S3x64x64_S3x64x64_0_2_1) slices_S3x64x64_S1x64x64_2_0_0) shapeCasts_S1x64x64_S64x64

/-- Layer 0's bias row out of the stack. -/
def row0 (b : FVec Ideal S3x64 .f32) : FVec Ideal S64 .f32 :=
  shapeCast S64 (extractStridedSlice S1x64 ![0, 0] b slices_S3x64_S1x64_0_0) shapeCasts_S1x64_S64
/-- Layer 1's bias row. -/
def row1 (b : FVec Ideal S3x64 .f32) : FVec Ideal S64 .f32 :=
  shapeCast S64 (extractStridedSlice S1x64 ![1, 0] b slices_S3x64_S1x64_1_0) shapeCasts_S1x64_S64
/-- Layer 2's bias row. -/
def row2 (b : FVec Ideal S3x64 .f32) : FVec Ideal S64 .f32 :=
  shapeCast S64 (extractStridedSlice S1x64 ![2, 0] b slices_S3x64_S1x64_2_0) shapeCasts_S1x64_S64

/-- The output weight row as a column. -/
def col (w : FVec Ideal S1x64 .f32) : FVec Ideal S64x1 .f32 :=
  transpose S64x1 [1, 0] w transposes_S1x64_S64x1_1_0

end Cert.KAgg

end
-- ==== Proof.KRows.lean ====
/-
  A layer on whole arrays, in the layout the kernel's regions use.

  `rows a x wr wo b` is, at node `r` and channel `c`, max ((Σ_k a(r,k) · wr(k,c) + Σ_k x(r,k) · wo(k,c)) + b(c), 0): the
  two 64 × 64 matrices are indexed (input channel, output channel) and the bias is one row. `project x w bo` is, at
  node `r`, Σ_k x(r,k) · w(k,0) + bo(0) with `w` one 64 × 1 column. Every block of 10000 consecutive rows of these arrays
  depends on the same block of rows of `a` and `x` only, which is why a kernel can compute them block by block.
-/
import Idealize.ShloMosaic.Lib.ValueIdx

noncomputable section

namespace Cert.KRows

open Idealize.ShloMosaic Idealize.ShloMosaic.ValueIdx

/-- One layer of all 100000 rows. -/
def rows (a x : (⟨2, ![100000, 64]⟩ : Shape).Idx → EReal) (wr wo : (⟨2, ![64, 64]⟩ : Shape).Idx → EReal)
    (b : (⟨1, ![64]⟩ : Shape).Idx → EReal) : (⟨2, ![100000, 64]⟩ : Shape).Idx → EReal :=
  fun i => max ((∑ k : Fin 64, a (ix2 (i 0) k) * wr (ix2 k (i 1)) + ∑ k : Fin 64, x (ix2 (i 0) k) * wo (ix2 k (i 1)))
    + b (ix1 (i 1))) (Ideal.ofBits .f32 0x00000000#32)

/-- The output projection of all 100000 rows. -/
def project (x : (⟨2, ![100000, 64]⟩ : Shape).Idx → EReal) (w : (⟨2, ![64, 1]⟩ : Shape).Idx → EReal)
    (bo : (⟨1, ![1]⟩ : Shape).Idx → EReal) : (⟨2, ![100000, 1]⟩ : Shape).Idx → EReal :=
  fun i => ∑ k : Fin 64, x (ix2 (i 0) k) * w (ix2 k (i 1)) + bo (ix1 (0 : Fin 1))

end Cert.KRows

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.KBody.lean ====
/-
  What a kernel body stores, read at one entry of its block.

  A combine body holds a block of 10000 node rows: the aggregate rows `a`, the feature rows `x`, the layer's two
  64 × 64 matrices `wr`, `wo` already laid out (input channel, output channel), and the bias row `b`. It narrows the
  float format of its operands (the identity on extended reals), multiplies through the matrix unit into a zero
  accumulator twice, adds the two products, adds the bias row spread over the rows, and takes the maximum with zero.
  At entry `(p, q)` of the block that is

      max ((Σ_k a(p,k) · wr(k,q) + Σ_k x(p,k) · wo(k,q)) + b(q), 0).

  The last body multiplies its rows by one 64 × 1 column and adds a one-element bias: Σ_k x(p,k) · w(k,0) + bo(0).
-/
import proofs.«146473_j62079457296460_1_alg».proof.Proof.Gen.KernelIdeal.Skeleton
import proofs.«146473_j62079457296460_1_alg».proof.Proof.LibPlainDot
import Idealize.ShloMosaic.Lib.ValueLayout
import Idealize.ShloMosaic.Lib.Pipeline.Value
import Idealize.ShloMosaic.PureOps.Ideal.Laws

noncomputable section

namespace Cert.KBody

open Cert.KernelIdeal Cert.KernelIdeal.Gen Idealize.ShloMosaic Idealize.ShloMosaic.ValueIdx

/-- A block of rows through a 64 × 64 matrix, on the matrix unit from a zero accumulator, at entry `(p, q)`. -/
theorem rows_times_matrix (a : FVec Ideal S10000x64 .bf16) (w : FVec Ideal S64x64 .bf16) (p : Fin 10000) (q : Fin 64) :
    matmul dot_S10000x64_S64x64_S10000x64_1_0_0_1_n_n none a w (constant S10000x64 .f32 0x00000000#32) (ix2 p q)
      = ∑ k : Fin 64, a (ix2 p k) * w (ix2 k q) :=
  Cert.Sage.matmul_plain_zero_apply (M := 10000) (K := 64) (N := 64) none a w p q

/-- A block of rows through one 64 × 1 column, at entry `(p, u)`. -/
theorem rows_times_column (a : FVec Ideal S10000x64 .bf16) (w : FVec Ideal S64x1 .bf16) (p : Fin 10000) (u : Fin 1) :
    matmul dot_S10000x64_S64x1_S10000x1_1_0_0_1_n_n none a w (constant S10000x1 .f32 0x00000000#32) (ix2 p u)
      = ∑ k : Fin 64, a (ix2 p k) * w (ix2 k u) :=
  Cert.Sage.matmul_plain_zero_apply (M := 10000) (K := 64) (N := 1) none a w p u

/-- A 64-vector cast to one row and spread over 10000 rows reads, at `(p, q)`, the vector's entry `q`. -/
theorem bias_row (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-- A one-element vector cast to 1 × 1 and spread over 10000 rows reads its one entry everywhere. -/
theorem bias_one (b : FVec Ideal S1 .f32) (p : Fin 10000) (u : Fin 1) :
    broadcastTo S10000x1 (shapeCast S1x1 b shapeCasts_S1_S1x1) broadcasts_S1x1_S10000x1 (ix2 p u) = b (ix1 (0 : Fin 1)) := by
  obtain rfl : u = 0 := Subsingleton.elim _ _
  exact (broadcastTo_1b_ab_apply _ broadcasts_S1x1_S10000x1 p 0).trans (shapeCast_a_1a_apply b shapeCasts_S1_S1x1 0 0)

/-- The first combine body's stored value at block entry `(p, q)`. -/
theorem combine0_apply (a x : Vec Ideal S10000x64 .f32) (wr wo : Vec Ideal S64x64 .f32) (b : Vec Ideal S64 .f32)
    (p : Fin 10000) (q : Fin 64) :
    k0_pay1 (F := Ideal) a x wr wo b (ix2 p q)
      = max ((∑ k : Fin 64, a (ix2 p k) * wr (ix2 k q) + ∑ k : Fin 64, x (ix2 p k) * wo (ix2 k q)) + b (ix1 q))
          (Ideal.ofBits .f32 0x00000000#32) := by
  unfold k0_pay1
  simp only [shapeCast_self]
  refine congrArg₂ max (congrArg₂ (· + ·) (congrArg₂ (· + ·) ?_ ?_) ?_) rfl
  · exact rows_times_matrix _ _ p q
  · exact rows_times_matrix _ _ p q
  · exact bias_row _ p q

/-- The second combine body's stored value at block entry `(p, q)`. -/
theorem combine1_apply (a x : Vec Ideal S10000x64 .f32) (wr wo : Vec Ideal S64x64 .f32) (b : Vec Ideal S64 .f32)
    (p : Fin 10000) (q : Fin 64) :
    k1_pay1 (F := Ideal) a x wr wo b (ix2 p q)
      = max ((∑ k : Fin 64, a (ix2 p k) * wr (ix2 k q) + ∑ k : Fin 64, x (ix2 p k) * wo (ix2 k q)) + b (ix1 q))
          (Ideal.ofBits .f32 0x00000000#32) := by
  unfold k1_pay1
  simp only [shapeCast_self]
  refine congrArg₂ max (congrArg₂ (· + ·) (congrArg₂ (· + ·) ?_ ?_) ?_) rfl
  · exact rows_times_matrix _ _ p q
  · exact rows_times_matrix _ _ p q
  · exact bias_row _ p q

/-- The third combine body's stored value at block entry `(p, q)`. -/
theorem combine2_apply (a x : Vec Ideal S10000x64 .f32) (wr wo : Vec Ideal S64x64 .f32) (b : Vec Ideal S64 .f32)
    (p : Fin 10000) (q : Fin 64) :
    k2_pay1 (F := Ideal) a x wr wo b (ix2 p q)
      = max ((∑ k : Fin 64, a (ix2 p k) * wr (ix2 k q) + ∑ k : Fin 64, x (ix2 p k) * wo (ix2 k q)) + b (ix1 q))
          (Ideal.ofBits .f32 0x00000000#32) := by
  unfold k2_pay1
  simp only [shapeCast_self]
  refine congrArg₂ max (congrArg₂ (· + ·) (congrArg₂ (· + ·) ?_ ?_) ?_) rfl
  · exact rows_times_matrix _ _ p q
  · exact rows_times_matrix _ _ p q
  · exact bias_row _ p q

/-- The output body's stored value at block entry `(p, u)`. -/
theorem project_apply (x : Vec Ideal S10000x64 .f32) (w : Vec Ideal S64x1 .f32) (bo : Vec Ideal S1 .f32)
    (p : Fin 10000) (u : Fin 1) :
    k3_pay1 (F := Ideal) x w bo (ix2 p u)
      = ∑ k : Fin 64, x (ix2 p k) * w (ix2 k u) + bo (ix1 (0 : Fin 1)) := by
  unfold k3_pay1
  simp only [shapeCast_self]
  refine congrArg₂ (· + ·) ?_ ?_
  · exact rows_times_column _ _ p u
  · exact bias_one _ p u

end Cert.KBody

end
-- ==== Proof.KRegion0.lean ====
/-
  The first combine region: its output array after the run is one layer of its input arrays.

  The region walks ten grid points; point `t` holds rows 10000·t … 10000·t + 9999 of the aggregate and feature arrays,
  the whole of the two matrices and of the bias row, and writes back rows 10000·t … of the output. What it writes is
  the body's stored value, which at entry `(p, q)` of the block is the layer's value at node 10000·t + p, channel `q`
  — the block of `KRows.rows` of the whole arrays. The ten blocks tile the 100000 rows, so the output array ends as
  `KRows.rows` of the arrays the region found, whatever those were (`V`).
-/
import proofs.«146473_j62079457296460_1_alg».proof.Proof.Gen.KernelIdeal.Frame
import proofs.«146473_j62079457296460_1_alg».proof.Proof.KBody
import proofs.«146473_j62079457296460_1_alg».proof.Proof.KRows
import Idealize.ShloMosaic.Lib.Pipeline.Value

set_option maxRecDepth 16384

noncomputable section

namespace Cert.KRegion0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's stored value at any index of the block, by its two coordinates. -/
theorem stored_at (a x : Vec Ideal S10000x64 .f32) (wr wo : Vec Ideal S64x64 .f32) (b : Vec Ideal S64 .f32)
    (j : S10000x64.Idx) :
    k0_pay1 (F := Ideal) a x wr wo b j
      = max ((∑ k : Fin 64, a (ix2 (j 0) k) * wr (ix2 k (j 1)) + ∑ k : Fin 64, x (ix2 (j 0) k) * wo (ix2 k (j 1)))
          + b (ix1 (j 1))) (Ideal.ofBits .f32 0x00000000#32) := by
  obtain ⟨p, q, rfl⟩ : ∃ (p : Fin 10000) (q : Fin 64), j = ix2 p q := ⟨j 0, j 1, eq_ix2 j⟩
  exact Cert.KBody.combine0_apply a x wr wo b p q

/-- The printed index maps over the ten grid points: the row blocks of the aggregate, the features and the output move
    together, every other block index is zero. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every one of the ten row blocks is some grid point's. -/
theorem index_onto : ∀ q : Fin 10, ∃ t : Fin cfg0.N, win0_5.index t = ![q.val, 0] :=
  (by decide +kernel : ∀ q : Fin 10, ∃ t : Fin grid0.N, win0_5.index t = ![q.val, 0])

/-- One entry of a block against one entry of the whole-array layer: if the block's rows are the whole arrays' rows at
    the matching node, and the matrices and the bias are the whole ones at the matching channel, the body's stored value at
    block index `j` is the layer's value at array index `i`. -/
theorem point_eq (A X : S100000x64.Idx → EReal) (R O : S64x64.Idx → EReal) (B : S64.Idx → EReal)
    (a x : Vec Ideal S10000x64 .f32) (wr wo : Vec Ideal S64x64 .f32) (b : Vec Ideal S64 .f32)
    (j : S10000x64.Idx) (i : S100000x64.Idx)
    (ha : ∀ k : Fin 64, a (ix2 (j 0) k) = A (ix2 (i 0) k))
    (hx : ∀ k : Fin 64, x (ix2 (j 0) k) = X (ix2 (i 0) k))
    (hr : ∀ k : Fin 64, wr (ix2 k (j 1)) = R (ix2 k (i 1)))
    (ho : ∀ k : Fin 64, wo (ix2 k (j 1)) = O (ix2 k (i 1)))
    (hb : b (ix1 (j 1)) = B (ix1 (i 1))) :
    k0_pay1 (F := Ideal) a x wr wo b j = Cert.KRows.rows A X R O B i := by
  rw [stored_at]
  unfold Cert.KRows.rows
  simp only [ha, hx, hr, ho, hb]

/-- What point `t` writes back is block `t` of the layer of the arrays the region found. -/
theorem flushed_eq (c : Dev nD) (t : Fin cfg0.N) :
    (dat0 V c).flushed 5 t = ((cfg0.win 5).blk t).view.read (Elt Ideal)
      (Cert.KRows.rows (V c main_v19) (V c main_arg0) (V c main_v21) (V c main_v23) (V c main_v25)) := by
  show (cfg0.win 5).cut (grid0.coords t) ((dat0 V c).after 5 t) = _
  rw [after0_5]
  unfold out0_5
  rw [View.canon_unit_zero origin2]
  simp only [View.ld_unit_zero (S := S10000x64) origin2, View.ld_unit_zero (S := S64x64) origin2,
    View.ld_unit_zero (S := S64) origin1]
  obtain ⟨e0, e1, e2, e3, e4, e5, e6, e7, e8, e9, e10⟩ := index_facts t
  refine funext fun (j : S10000x64.Idx) => ?_
  have hj0 : (j 0).val < 10000 := (j 0).isLt
  have hj1 : (j 1).val < 64 := (j 1).isLt
  refine point_eq (V c main_v19) (V c main_arg0) (V c main_v21) (V c main_v23) (V c main_v25)
    (iblk0 V c 0 t) (iblk0 V c 1 t) (iblk0 V c 2 t) (iblk0 V c 3 t) (iblk0 V c 4 t) j (((cfg0.win 5).blk t).view.emb j)
    ?_ ?_ ?_ ?_ ?_
  · intro k
    show V c main_v19 (((cfg0.win 0).blk t).view.emb (ix2 (j 0) k)) = V c main_v19 (ix2 ((((cfg0.win 5).blk t).view.emb j) 0) k)
    refine congrArg (V c main_v19) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  · intro k
    show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  · intro k
    show V c main_v21 (((cfg0.win 2).blk t).view.emb (ix2 k (j 1))) = V c main_v21 (ix2 k ((((cfg0.win 5).blk t).view.emb j) 1))
    refine congrArg (V c main_v21) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  · intro k
    show V c main_v23 (((cfg0.win 3).blk t).view.emb (ix2 k (j 1))) = V c main_v23 (ix2 k ((((cfg0.win 5).blk t).view.emb j) 1))
    refine congrArg (V c main_v23) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  · show V c main_v25 (((cfg0.win 4).blk t).view.emb (ix1 (j 1))) = V c main_v25 (ix1 ((((cfg0.win 5).blk t).view.emb j) 1))
    refine congrArg (V c main_v25) (funext fun a => Fin.ext ?_)
    match a with
    | ⟨0, _⟩ => show win0_4.index t (0 : Fin 1) * 64 + 1 * (j 1).val = win0_5.index t (1 : Fin 2) * 64 + 1 * (j 1).val; omega

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- The ten blocks tile the output array: row `r` is in the block of point `r / 10000`. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the region: one layer of the arrays the region found. -/
theorem final (c : Dev nD) :
    (dat0 V c).arrAt 5 cfg0.N
      = Cert.KRows.rows (V c main_v19) (V c main_arg0) (V c main_v21) (V c main_v23) (V c main_v25) :=
  (dat0 V c).arrAt_eq_of_cover 5 _ (fun t _ => flushed_eq V c t) covered

end Cert.KRegion0

end
-- ==== Proof.KRegion1.lean ====
/-
  The second combine region: its output array after the run is one layer of its input arrays.

  The region walks ten grid points; point `t` holds rows 10000·t … 10000·t + 9999 of the aggregate and feature arrays,
  the whole of the two matrices and of the bias row, and writes back rows 10000·t … of the output. What it writes is
  the body's stored value, which at entry `(p, q)` of the block is the layer's value at node 10000·t + p, channel `q`
  — the block of `KRows.rows` of the whole arrays. The ten blocks tile the 100000 rows, so the output array ends as
  `KRows.rows` of the arrays the region found, whatever those were (`V`).
-/
import proofs.«146473_j62079457296460_1_alg».proof.Proof.Gen.KernelIdeal.Frame
import proofs.«146473_j62079457296460_1_alg».proof.Proof.KBody
import proofs.«146473_j62079457296460_1_alg».proof.Proof.KRows
import Idealize.ShloMosaic.Lib.Pipeline.Value

set_option maxRecDepth 16384

noncomputable section

namespace Cert.KRegion1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's stored value at any index of the block, by its two coordinates. -/
theorem stored_at (a x : Vec Ideal S10000x64 .f32) (wr wo : Vec Ideal S64x64 .f32) (b : Vec Ideal S64 .f32)
    (j : S10000x64.Idx) :
    k1_pay1 (F := Ideal) a x wr wo b j
      = max ((∑ k : Fin 64, a (ix2 (j 0) k) * wr (ix2 k (j 1)) + ∑ k : Fin 64, x (ix2 (j 0) k) * wo (ix2 k (j 1)))
          + b (ix1 (j 1))) (Ideal.ofBits .f32 0x00000000#32) := by
  obtain ⟨p, q, rfl⟩ : ∃ (p : Fin 10000) (q : Fin 64), j = ix2 p q := ⟨j 0, j 1, eq_ix2 j⟩
  exact Cert.KBody.combine1_apply a x wr wo b p q

/-- The printed index maps over the ten grid points: the row blocks of the aggregate, the features and the output move
    together, every other block index is zero. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every one of the ten row blocks is some grid point's. -/
theorem index_onto : ∀ q : Fin 10, ∃ t : Fin cfg1.N, win1_5.index t = ![q.val, 0] :=
  (by decide +kernel : ∀ q : Fin 10, ∃ t : Fin grid1.N, win1_5.index t = ![q.val, 0])

/-- One entry of a block against one entry of the whole-array layer: if the block's rows are the whole arrays' rows at
    the matching node, and the matrices and the bias are the whole ones at the matching channel, the body's stored value at
    block index `j` is the layer's value at array index `i`. -/
theorem point_eq (A X : S100000x64.Idx → EReal) (R O : S64x64.Idx → EReal) (B : S64.Idx → EReal)
    (a x : Vec Ideal S10000x64 .f32) (wr wo : Vec Ideal S64x64 .f32) (b : Vec Ideal S64 .f32)
    (j : S10000x64.Idx) (i : S100000x64.Idx)
    (ha : ∀ k : Fin 64, a (ix2 (j 0) k) = A (ix2 (i 0) k))
    (hx : ∀ k : Fin 64, x (ix2 (j 0) k) = X (ix2 (i 0) k))
    (hr : ∀ k : Fin 64, wr (ix2 k (j 1)) = R (ix2 k (i 1)))
    (ho : ∀ k : Fin 64, wo (ix2 k (j 1)) = O (ix2 k (i 1)))
    (hb : b (ix1 (j 1)) = B (ix1 (i 1))) :
    k1_pay1 (F := Ideal) a x wr wo b j = Cert.KRows.rows A X R O B i := by
  rw [stored_at]
  unfold Cert.KRows.rows
  simp only [ha, hx, hr, ho, hb]

/-- What point `t` writes back is block `t` of the layer of the arrays the region found. -/
theorem flushed_eq (c : Dev nD) (t : Fin cfg1.N) :
    (dat1 V c).flushed 5 t = ((cfg1.win 5).blk t).view.read (Elt Ideal)
      (Cert.KRows.rows (V c main_v39) (V c main_v26) (V c main_v41) (V c main_v43) (V c main_v45)) := by
  show (cfg1.win 5).cut (grid1.coords t) ((dat1 V c).after 5 t) = _
  rw [after1_5]
  unfold out1_5
  rw [View.canon_unit_zero origin2]
  simp only [View.ld_unit_zero (S := S10000x64) origin2, View.ld_unit_zero (S := S64x64) origin2,
    View.ld_unit_zero (S := S64) origin1]
  obtain ⟨e0, e1, e2, e3, e4, e5, e6, e7, e8, e9, e10⟩ := index_facts t
  refine funext fun (j : S10000x64.Idx) => ?_
  have hj0 : (j 0).val < 10000 := (j 0).isLt
  have hj1 : (j 1).val < 64 := (j 1).isLt
  refine point_eq (V c main_v39) (V c main_v26) (V c main_v41) (V c main_v43) (V c main_v45)
    (iblk1 V c 0 t) (iblk1 V c 1 t) (iblk1 V c 2 t) (iblk1 V c 3 t) (iblk1 V c 4 t) j (((cfg1.win 5).blk t).view.emb j)
    ?_ ?_ ?_ ?_ ?_
  · intro k
    show V c main_v39 (((cfg1.win 0).blk t).view.emb (ix2 (j 0) k)) = V c main_v39 (ix2 ((((cfg1.win 5).blk t).view.emb j) 0) k)
    refine congrArg (V c main_v39) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · intro k
    show V c main_v26 (((cfg1.win 1).blk t).view.emb (ix2 (j 0) k)) = V c main_v26 (ix2 ((((cfg1.win 5).blk t).view.emb j) 0) k)
    refine congrArg (V c main_v26) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · intro k
    show V c main_v41 (((cfg1.win 2).blk t).view.emb (ix2 k (j 1))) = V c main_v41 (ix2 k ((((cfg1.win 5).blk t).view.emb j) 1))
    refine congrArg (V c main_v41) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · intro k
    show V c main_v43 (((cfg1.win 3).blk t).view.emb (ix2 k (j 1))) = V c main_v43 (ix2 k ((((cfg1.win 5).blk t).view.emb j) 1))
    refine congrArg (V c main_v43) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · show V c main_v45 (((cfg1.win 4).blk t).view.emb (ix1 (j 1))) = V c main_v45 (ix1 ((((cfg1.win 5).blk t).view.emb j) 1))
    refine congrArg (V c main_v45) (funext fun a => Fin.ext ?_)
    match a with
    | ⟨0, _⟩ => show win1_4.index t (0 : Fin 1) * 64 + 1 * (j 1).val = win1_5.index t (1 : Fin 2) * 64 + 1 * (j 1).val; omega

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v46).slice (win1_5.rect t)).set ↔ _
  rw [View.set_slice_whole, Rect.mem_set_unit]
  exact Iff.rfl

/-- The ten blocks tile the output array: row `r` is in the block of point `r / 10000`. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the region: one layer of the arrays the region found. -/
theorem final (c : Dev nD) :
    (dat1 V c).arrAt 5 cfg1.N
      = Cert.KRows.rows (V c main_v39) (V c main_v26) (V c main_v41) (V c main_v43) (V c main_v45) :=
  (dat1 V c).arrAt_eq_of_cover 5 _ (fun t _ => flushed_eq V c t) covered

end Cert.KRegion1

end
-- ==== Proof.KRegion2.lean ====
/-
  The third combine region: its output array after the run is one layer of its input arrays.

  The region walks ten grid points; point `t` holds rows 10000·t … 10000·t + 9999 of the aggregate and feature arrays,
  the whole of the two matrices and of the bias row, and writes back rows 10000·t … of the output. What it writes is
  the body's stored value, which at entry `(p, q)` of the block is the layer's value at node 10000·t + p, channel `q`
  — the block of `KRows.rows` of the whole arrays. The ten blocks tile the 100000 rows, so the output array ends as
  `KRows.rows` of the arrays the region found, whatever those were (`V`).
-/
import proofs.«146473_j62079457296460_1_alg».proof.Proof.Gen.KernelIdeal.Frame
import proofs.«146473_j62079457296460_1_alg».proof.Proof.KBody
import proofs.«146473_j62079457296460_1_alg».proof.Proof.KRows
import Idealize.ShloMosaic.Lib.Pipeline.Value

set_option maxRecDepth 16384

noncomputable section

namespace Cert.KRegion2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's stored value at any index of the block, by its two coordinates. -/
theorem stored_at (a x : Vec Ideal S10000x64 .f32) (wr wo : Vec Ideal S64x64 .f32) (b : Vec Ideal S64 .f32)
    (j : S10000x64.Idx) :
    k2_pay1 (F := Ideal) a x wr wo b j
      = max ((∑ k : Fin 64, a (ix2 (j 0) k) * wr (ix2 k (j 1)) + ∑ k : Fin 64, x (ix2 (j 0) k) * wo (ix2 k (j 1)))
          + b (ix1 (j 1))) (Ideal.ofBits .f32 0x00000000#32) := by
  obtain ⟨p, q, rfl⟩ : ∃ (p : Fin 10000) (q : Fin 64), j = ix2 p q := ⟨j 0, j 1, eq_ix2 j⟩
  exact Cert.KBody.combine2_apply a x wr wo b p q

/-- The printed index maps over the ten grid points: the row blocks of the aggregate, the features and the output move
    together, every other block index is zero. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 9 :=
  (by decide +kernel : ∀ t : Fin grid2.N, _)

/-- Every one of the ten row blocks is some grid point's. -/
theorem index_onto : ∀ q : Fin 10, ∃ t : Fin cfg2.N, win2_5.index t = ![q.val, 0] :=
  (by decide +kernel : ∀ q : Fin 10, ∃ t : Fin grid2.N, win2_5.index t = ![q.val, 0])

/-- One entry of a block against one entry of the whole-array layer: if the block's rows are the whole arrays' rows at
    the matching node, and the matrices and the bias are the whole ones at the matching channel, the body's stored value at
    block index `j` is the layer's value at array index `i`. -/
theorem point_eq (A X : S100000x64.Idx → EReal) (R O : S64x64.Idx → EReal) (B : S64.Idx → EReal)
    (a x : Vec Ideal S10000x64 .f32) (wr wo : Vec Ideal S64x64 .f32) (b : Vec Ideal S64 .f32)
    (j : S10000x64.Idx) (i : S100000x64.Idx)
    (ha : ∀ k : Fin 64, a (ix2 (j 0) k) = A (ix2 (i 0) k))
    (hx : ∀ k : Fin 64, x (ix2 (j 0) k) = X (ix2 (i 0) k))
    (hr : ∀ k : Fin 64, wr (ix2 k (j 1)) = R (ix2 k (i 1)))
    (ho : ∀ k : Fin 64, wo (ix2 k (j 1)) = O (ix2 k (i 1)))
    (hb : b (ix1 (j 1)) = B (ix1 (i 1))) :
    k2_pay1 (F := Ideal) a x wr wo b j = Cert.KRows.rows A X R O B i := by
  rw [stored_at]
  unfold Cert.KRows.rows
  simp only [ha, hx, hr, ho, hb]

/-- What point `t` writes back is block `t` of the layer of the arrays the region found. -/
theorem flushed_eq (c : Dev nD) (t : Fin cfg2.N) :
    (dat2 V c).flushed 5 t = ((cfg2.win 5).blk t).view.read (Elt Ideal)
      (Cert.KRows.rows (V c main_v59) (V c main_v46) (V c main_v61) (V c main_v63) (V c main_v65)) := by
  show (cfg2.win 5).cut (grid2.coords t) ((dat2 V c).after 5 t) = _
  rw [after2_5]
  unfold out2_5
  rw [View.canon_unit_zero origin2]
  simp only [View.ld_unit_zero (S := S10000x64) origin2, View.ld_unit_zero (S := S64x64) origin2,
    View.ld_unit_zero (S := S64) origin1]
  obtain ⟨e0, e1, e2, e3, e4, e5, e6, e7, e8, e9, e10⟩ := index_facts t
  refine funext fun (j : S10000x64.Idx) => ?_
  have hj0 : (j 0).val < 10000 := (j 0).isLt
  have hj1 : (j 1).val < 64 := (j 1).isLt
  refine point_eq (V c main_v59) (V c main_v46) (V c main_v61) (V c main_v63) (V c main_v65)
    (iblk2 V c 0 t) (iblk2 V c 1 t) (iblk2 V c 2 t) (iblk2 V c 3 t) (iblk2 V c 4 t) j (((cfg2.win 5).blk t).view.emb j)
    ?_ ?_ ?_ ?_ ?_
  · intro k
    show V c main_v59 (((cfg2.win 0).blk t).view.emb (ix2 (j 0) k)) = V c main_v59 (ix2 ((((cfg2.win 5).blk t).view.emb j) 0) k)
    refine congrArg (V c main_v59) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  · intro k
    show V c main_v46 (((cfg2.win 1).blk t).view.emb (ix2 (j 0) k)) = V c main_v46 (ix2 ((((cfg2.win 5).blk t).view.emb j) 0) k)
    refine congrArg (V c main_v46) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  · intro k
    show V c main_v61 (((cfg2.win 2).blk t).view.emb (ix2 k (j 1))) = V c main_v61 (ix2 k ((((cfg2.win 5).blk t).view.emb j) 1))
    refine congrArg (V c main_v61) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · intro k
    show V c main_v63 (((cfg2.win 3).blk t).view.emb (ix2 k (j 1))) = V c main_v63 (ix2 k ((((cfg2.win 5).blk t).view.emb j) 1))
    refine congrArg (V c main_v63) (funext fun a => Fin.ext ?_)
    match a with
    | ⟨0, _⟩ => show win2_3.index t (0 : Fin 2) * 64 + 1 * k.val = k.val; omega
    | ⟨1, _⟩ => show win2_3.index t (1 : Fin 2) * 64 + 1 * (j 1).val = win2_5.index t (1 : Fin 2) * 64 + 1 * (j 1).val; omega
  · show V c main_v65 (((cfg2.win 4).blk t).view.emb (ix1 (j 1))) = V c main_v65 (ix1 ((((cfg2.win 5).blk t).view.emb j) 1))
    refine congrArg (V c main_v65) (funext fun a => Fin.ext ?_)
    match a with
    | ⟨0, _⟩ => show win2_4.index t (0 : Fin 1) * 64 + 1 * (j 1).val = win2_5.index t (1 : Fin 2) * 64 + 1 * (j 1).val; omega

/-- An index of the output array is in point `t`'s block iff each coordinate is in the block's range on its axis. -/
theorem mem_block (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v66).slice (win2_5.rect t)).set ↔ _
  rw [View.set_slice_whole, Rect.mem_set_unit]
  exact Iff.rfl

/-- The ten blocks tile the output array: row `r` is in the block of point `r / 10000`. -/
theorem covered (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := index_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after the region: one layer of the arrays the region found. -/
theorem final (c : Dev nD) :
    (dat2 V c).arrAt 5 cfg2.N
      = Cert.KRows.rows (V c main_v59) (V c main_v46) (V c main_v61) (V c main_v63) (V c main_v65) :=
  (dat2 V c).arrAt_eq_of_cover 5 _ (fun t _ => flushed_eq V c t) covered

end Cert.KRegion2

end
-- ==== Proof.KRegion3.lean ====
/-
  The output region: its output array after the run is the output projection of its input array.

  Point `t` of the ten holds rows 10000·t … 10000·t + 9999 of the last layer's features, the whole 64 × 1 column and the
  one-element bias, and writes back rows 10000·t … of the 100000 × 1 output: at entry `(p, 0)` of the block the sum over
  `k` of the row's entry `k` times the column's entry `k`, plus the bias — the block of `KRows.project` of the whole arrays.
  The ten blocks tile the output, so it ends as `KRows.project` of the arrays the region found (`V`).
-/
import proofs.«146473_j62079457296460_1_alg».proof.Proof.Gen.KernelIdeal.Frame
import proofs.«146473_j62079457296460_1_alg».proof.Proof.KBody
import proofs.«146473_j62079457296460_1_alg».proof.Proof.KRows
import Idealize.ShloMosaic.Lib.Pipeline.Value

set_option maxRecDepth 16384

noncomputable section

namespace Cert.KRegion3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The body's stored value at any index of the block, by its two coordinates. -/
theorem stored_at (x : Vec Ideal S10000x64 .f32) (w : Vec Ideal S64x1 .f32) (bo : Vec Ideal S1 .f32) (j : S10000x1.Idx) :
    k3_pay1 (F := Ideal) x w bo j = ∑ k : Fin 64, x (ix2 (j 0) k) * w (ix2 k (j 1)) + bo (ix1 (0 : Fin 1)) := by
  obtain ⟨p, u, rfl⟩ : ∃ (p : Fin 10000) (u : Fin 1), j = ix2 p u := ⟨j 0, j 1, eq_ix2 j⟩
  exact Cert.KBody.project_apply x w bo p u

/-- The printed index maps over the ten grid points: the row blocks of the features and of the output move together,
    every other block index is zero. -/
theorem index_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 1) = 0
    ∧ win3_3.index t (1 : Fin 2) = 0 ∧ win3_3.index t (0 : Fin 2) ≤ 9 :=
  (by decide +kernel : ∀ t : Fin grid3.N, _)

/-- Every one of the ten row blocks is some grid point's. -/
theorem index_onto : ∀ q : Fin 10, ∃ t : Fin cfg3.N, win3_3.index t = ![q.val, 0] :=
  (by decide +kernel : ∀ q : Fin 10, ∃ t : Fin grid3.N, win3_3.index t = ![q.val, 0])

/-- One entry of a block against one entry of the whole-array projection. -/
theorem point_eq (X : S100000x64.Idx → EReal) (W : S64x1.Idx → EReal) (B : S1.Idx → EReal)
    (x : Vec Ideal S10000x64 .f32) (w : Vec Ideal S64x1 .f32) (bo : Vec Ideal S1 .f32)
    (j : S10000x1.Idx) (i : S100000x1.Idx)
    (hx : ∀ k : Fin 64, x (ix2 (j 0) k) = X (ix2 (i 0) k))
    (hw : ∀ k : Fin 64, w (ix2 k (j 1)) = W (ix2 k (i 1)))
    (hb : bo (ix1 (0 : Fin 1)) = B (ix1 (0 : Fin 1))) :
    k3_pay1 (F := Ideal) x w bo j = Cert.KRows.project X W B i := by
  rw [stored_at]
  unfold Cert.KRows.project
  simp only [hx, hw, hb]

/-- What point `t` writes back is block `t` of the projection of the arrays the region found. -/
theorem flushed_eq (c : Dev nD) (t : Fin cfg3.N) :
    (dat3 V c).flushed 3 t = ((cfg3.win 3).blk t).view.read (Elt Ideal)
      (Cert.KRows.project (V c main_v66) (V c main_v6) (V c main_arg7)) := by
  show (cfg3.win 3).cut (grid3.coords t) ((dat3 V c).after 3 t) = _
  rw [after3_3]
  unfold out3_3
  rw [View.canon_unit_zero origin2]
  simp only [View.ld_unit_zero (S := S10000x64) origin2, View.ld_unit_zero (S := S64x1) origin2,
    View.ld_unit_zero (S := S1) origin1]
  obtain ⟨e0, e1, e2, e3, e4, e5, e6⟩ := index_facts t
  refine funext fun (j : S10000x1.Idx) => ?_
  have hj0 : (j 0).val < 10000 := (j 0).isLt
  have hj1 : (j 1).val < 1 := (j 1).isLt
  refine point_eq (V c main_v66) (V c main_v6) (V c main_arg7)
    (iblk3 V c 0 t) (iblk3 V c 1 t) (iblk3 V c 2 t) j (((cfg3.win 3).blk t).view.emb j) ?_ ?_ ?_
  · intro k
    show V c main_v66 (((cfg3.win 0).blk t).view.emb (ix2 (j 0) k)) = V c main_v66 (ix2 ((((cfg3.win 3).blk t).view.emb j) 0) k)
    refine congrArg (V c main_v66) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * k.val = k.val; omega
  · intro k
    show V c main_v6 (((cfg3.win 1).blk t).view.emb (ix2 k (j 1))) = V c main_v6 (ix2 k ((((cfg3.win 3).blk t).view.emb j) 1))
    refine congrArg (V c main_v6) (funext fun a => Fin.ext ?_)
    match a with
    | ⟨0, _⟩ => show win3_1.index t (0 : Fin 2) * 64 + 1 * k.val = k.val; omega
    | ⟨1, _⟩ => show win3_1.index t (1 : Fin 2) * 1 + 1 * (j 1).val = win3_3.index t (1 : Fin 2) * 1 + 1 * (j 1).val; omega
  · show V c main_arg7 (((cfg3.win 2).blk t).view.emb (ix1 (0 : Fin 1))) = V c main_arg7 (ix1 (0 : Fin 1))
    refine congrArg (V c main_arg7) (funext fun a => Fin.ext ?_)
    match a with
    | ⟨0, _⟩ => show win3_2.index t (0 : Fin 1) * 1 + 1 * 0 = 0; omega

/-- An index of the output array is in point `t`'s block iff each coordinate is in the block's range on its axis. -/
theorem mem_block (t : Fin cfg3.N) (i : S100000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v67).slice (win3_3.rect t)).set ↔ _
  rw [View.set_slice_whole, Rect.mem_set_unit]
  exact Iff.rfl

/-- The ten blocks tile the output array: row `r` is in the block of point `r / 10000`. -/
theorem covered (i : S100000x1.Idx) : ∃ t : Fin cfg3.N, (cfg3.win 3).flush t = true ∧ i ∈ ((cfg3.win 3).blk t).view.set := by
  have hi0 : (i 0).val < 100000 := (i 0).isLt
  have hi1 : (i 1).val < 1 := (i 1).isLt
  obtain ⟨t, ht⟩ := index_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 1 ≤ (i 1).val ∧ (i 1).val < win3_3.index t (1 : Fin 2) * 1 + 1; omega

/-- The output array after the region: the output projection of the arrays the region found. -/
theorem final (c : Dev nD) :
    (dat3 V c).arrAt 3 cfg3.N = Cert.KRows.project (V c main_v66) (V c main_v6) (V c main_arg7) :=
  (dat3 V c).arrAt_eq_of_cover 3 _ (fun t _ => flushed_eq V c t) covered

end Cert.KRegion3

end
-- ==== Proof.KHost.lean ====
/-
  The buffers between the regions: what each region finds in the arrays it reads.

  The program alternates host stretches and regions. Before the first region the host cuts the edge list into sources
  and destinations, transposes the stacked weights, aggregates the input features and cuts out layer 0's matrices and
  bias row; the first region then writes layer 0's output. The second and third stretches aggregate the previous
  region's output with the same sources, destinations and edge weights and cut out the next layer's parameters; the
  last region reads the third layer's output, the transposed output weight and the output bias. A buffer that a
  stretch or a region does not write keeps its contents across it, so each operand is walked back to the stretch that
  wrote it or to the launch memory. The result array is then three nested layers of the arguments followed by the
  output projection, all in the kernel's layout.
-/
import proofs.«146473_j62079457296460_1_alg».proof.Proof.Gen.KernelIdeal.Frame
import proofs.«146473_j62079457296460_1_alg».proof.Proof.KAgg
import proofs.«146473_j62079457296460_1_alg».proof.Proof.KRows
import proofs.«146473_j62079457296460_1_alg».proof.Proof.KRegion0
import proofs.«146473_j62079457296460_1_alg».proof.Proof.KRegion1
import proofs.«146473_j62079457296460_1_alg».proof.Proof.KRegion2
import proofs.«146473_j62079457296460_1_alg».proof.Proof.KRegion3
import Idealize.ShloMosaic.Lib.StableHlo.Run

set_option maxRecDepth 16384

noncomputable section

namespace Cert.KHost

open Cert.KernelIdeal Cert.KernelIdeal.Gen Idealize.ShloMosaic Idealize.ShloMosaic.TcCoe Idealize.SL.Sem
open Idealize.ShloMosaic.StableHlo
open Cert.KAgg

variable (m : (ℓ : Loc nD τ sig) → Buf (Elt Ideal) ℓ) (ρ : Dev nD → PrngReg) (c : Dev nD)

/-- The argument arrays at launch, each at its literal shape. -/
abbrev x0 : FVec Ideal S100000x64 .f32 := m ((c : Thread nD τ).loc main_arg0)
abbrev e1 : IVec S2x1600000 32 := m ((c : Thread nD τ).loc main_arg1)
abbrev ea2 : FVec Ideal S1600000 .f32 := m ((c : Thread nD τ).loc main_arg2)
abbrev w3 : FVec Ideal S3x64x64 .f32 := m ((c : Thread nD τ).loc main_arg3)
abbrev w4 : FVec Ideal S3x64x64 .f32 := m ((c : Thread nD τ).loc main_arg4)
abbrev b5 : FVec Ideal S3x64 .f32 := m ((c : Thread nD τ).loc main_arg5)
abbrev w6 : FVec Ideal S1x64 .f32 := m ((c : Thread nD τ).loc main_arg6)
abbrev b7 : FVec Ideal S1 .f32 := m ((c : Thread nD τ).loc main_arg7)

/-- The edge sources and destinations as the first stretch cuts them out of the edge list. -/
abbrev src : IVec S1600000 32 :=
  shapeCast S1600000 (extractStridedSlice S1x1600000 ![0, 0] (e1 m c) slices_S2x1600000_S1x1600000_0_0) shapeCasts_S1x1600000_S1600000
abbrev dst : IVec S1600000 32 :=
  shapeCast S1600000 (extractStridedSlice S1x1600000 ![1, 0] (e1 m c) slices_S2x1600000_S1x1600000_1_0) shapeCasts_S1x1600000_S1600000
/-- The stacked weights with each matrix transposed. -/
abbrev w3T : FVec Ideal S3x64x64 .f32 := transpose S3x64x64 [0, 2, 1] (w3 m c) transposes_S3x64x64_S3x64x64_0_2_1
abbrev w4T : FVec Ideal S3x64x64 .f32 := transpose S3x64x64 [0, 2, 1] (w4 m c) transposes_S3x64x64_S3x64x64_0_2_1

/-- A stretch keeps a buffer none of its operations writes. -/
macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## After the first stretch -/

theorem W1_v1 : W1 m ρ c (Proc.devRef .tc main_v1) = src m c := by
  show StableHlo.after hostOps0 (W0 m ρ c) (Proc.devRef .tc main_v1) = _
  dsimp only [hostOps0]; after_results_simp <;> rfl
theorem W1_v3 : W1 m ρ c (Proc.devRef .tc main_v3) = dst m c := by
  show StableHlo.after hostOps0 (W0 m ρ c) (Proc.devRef .tc main_v3) = _
  dsimp only [hostOps0]; after_results_simp <;> rfl
theorem W1_v4 : W1 m ρ c (Proc.devRef .tc main_v4) = w3T m c := by
  show StableHlo.after hostOps0 (W0 m ρ c) (Proc.devRef .tc main_v4) = _
  dsimp only [hostOps0]; after_results_simp <;> rfl
theorem W1_v5 : W1 m ρ c (Proc.devRef .tc main_v5) = w4T m c := by
  show StableHlo.after hostOps0 (W0 m ρ c) (Proc.devRef .tc main_v5) = _
  dsimp only [hostOps0]; after_results_simp <;> rfl
theorem W1_v6 : W1 m ρ c (Proc.devRef .tc main_v6) = col (w6 m c) := by
  show StableHlo.after hostOps0 (W0 m ρ c) (Proc.devRef .tc main_v6) = _
  unfold col
  dsimp only [hostOps0]; after_results_simp <;> rfl
theorem W1_arg0 : W1 m ρ c (Proc.devRef .tc main_arg0) = x0 m c := by
  show StableHlo.after hostOps0 (W0 m ρ c) (Proc.devRef .tc main_arg0) = W0 m ρ c (Proc.devRef .tc main_arg0)
  stretch_keeps hostOps0
theorem W1_arg2 : W1 m ρ c (Proc.devRef .tc main_arg2) = ea2 m c := by
  show StableHlo.after hostOps0 (W0 m ρ c) (Proc.devRef .tc main_arg2) = W0 m ρ c (Proc.devRef .tc main_arg2)
  stretch_keeps hostOps0
theorem W1_arg5 : W1 m ρ c (Proc.devRef .tc main_arg5) = b5 m c := by
  show StableHlo.after hostOps0 (W0 m ρ c) (Proc.devRef .tc main_arg5) = W0 m ρ c (Proc.devRef .tc main_arg5)
  stretch_keeps hostOps0
theorem W1_arg7 : W1 m ρ c (Proc.devRef .tc main_arg7) = b7 m c := by
  show StableHlo.after hostOps0 (W0 m ρ c) (Proc.devRef .tc main_arg7) = W0 m ρ c (Proc.devRef .tc main_arg7)
  stretch_keeps hostOps0
set_option maxHeartbeats 2000000 in
theorem W1_v19 : W1 m ρ c (Proc.devRef .tc main_v19) = kagg (x0 m c) (e1 m c) (ea2 m c) := by
  show StableHlo.after hostOps0 (W0 m ρ c) (Proc.devRef .tc main_v19) = _
  unfold kagg
  dsimp only [hostOps0]; after_results_simp <;> rfl
theorem W1_v21 : W1 m ρ c (Proc.devRef .tc main_v21) = mat0 (w3 m c) := by
  show StableHlo.after hostOps0 (W0 m ρ c) (Proc.devRef .tc main_v21) = _
  unfold mat0
  dsimp only [hostOps0]; after_results_simp <;> rfl
theorem W1_v23 : W1 m ρ c (Proc.devRef .tc main_v23) = mat0 (w4 m c) := by
  show StableHlo.after hostOps0 (W0 m ρ c) (Proc.devRef .tc main_v23) = _
  unfold mat0
  dsimp only [hostOps0]; after_results_simp <;> rfl
theorem W1_v25 : W1 m ρ c (Proc.devRef .tc main_v25) = row0 (b5 m c) := by
  show StableHlo.after hostOps0 (W0 m ρ c) (Proc.devRef .tc main_v25) = _
  unfold row0
  dsimp only [hostOps0]; after_results_simp <;> rfl

/-- The first layer's output, in the kernel's layout. -/
abbrev h1 : FVec Ideal S100000x64 .f32 :=
  Cert.KRows.rows (kagg (x0 m c) (e1 m c) (ea2 m c)) (x0 m c) (mat0 (w3 m c)) (mat0 (w4 m c)) (row0 (b5 m c))

/-- The first region leaves the first layer's output in its output array. -/
theorem W2_v26 : W2 m ρ c (Proc.devRef .tc main_v26) = h1 m c := by
  refine (W2_arr m ρ c 5).trans ((Cert.KRegion0.final (V1 m ρ) c).trans ?_)
  show Cert.KRows.rows (W1 m ρ c (Proc.devRef .tc main_v19)) (W1 m ρ c (Proc.devRef .tc main_arg0))
      (W1 m ρ c (Proc.devRef .tc main_v21)) (W1 m ρ c (Proc.devRef .tc main_v23)) (W1 m ρ c (Proc.devRef .tc main_v25)) = _
  rw [W1_v19, W1_arg0, W1_v21, W1_v23, W1_v25]

/-! ## Across the first region and the second stretch -/

theorem W2_v1 : W2 m ρ c (Proc.devRef .tc main_v1) = src m c := (W2_of_ne m ρ c main_v1 (by decide)).trans (W1_v1 m ρ c)
theorem W2_v3 : W2 m ρ c (Proc.devRef .tc main_v3) = dst m c := (W2_of_ne m ρ c main_v3 (by decide)).trans (W1_v3 m ρ c)
theorem W2_v4 : W2 m ρ c (Proc.devRef .tc main_v4) = w3T m c := (W2_of_ne m ρ c main_v4 (by decide)).trans (W1_v4 m ρ c)
theorem W2_v5 : W2 m ρ c (Proc.devRef .tc main_v5) = w4T m c := (W2_of_ne m ρ c main_v5 (by decide)).trans (W1_v5 m ρ c)
theorem W2_v6 : W2 m ρ c (Proc.devRef .tc main_v6) = col (w6 m c) := (W2_of_ne m ρ c main_v6 (by decide)).trans (W1_v6 m ρ c)
theorem W2_arg2 : W2 m ρ c (Proc.devRef .tc main_arg2) = ea2 m c := (W2_of_ne m ρ c main_arg2 (by decide)).trans (W1_arg2 m ρ c)
theorem W2_arg5 : W2 m ρ c (Proc.devRef .tc main_arg5) = b5 m c := (W2_of_ne m ρ c main_arg5 (by decide)).trans (W1_arg5 m ρ c)
theorem W2_arg7 : W2 m ρ c (Proc.devRef .tc main_arg7) = b7 m c := (W2_of_ne m ρ c main_arg7 (by decide)).trans (W1_arg7 m ρ c)

theorem W3_v1 : W3 m ρ c (Proc.devRef .tc main_v1) = src m c :=
  (show StableHlo.after hostOps1 (W2 m ρ c) (Proc.devRef .tc main_v1) = W2 m ρ c (Proc.devRef .tc main_v1) by stretch_keeps hostOps1).trans (W2_v1 m ρ c)
theorem W3_v3 : W3 m ρ c (Proc.devRef .tc main_v3) = dst m c :=
  (show StableHlo.after hostOps1 (W2 m ρ c) (Proc.devRef .tc main_v3) = W2 m ρ c (Proc.devRef .tc main_v3) by stretch_keeps hostOps1).trans (W2_v3 m ρ c)
theorem W3_v4 : W3 m ρ c (Proc.devRef .tc main_v4) = w3T m c :=
  (show StableHlo.after hostOps1 (W2 m ρ c) (Proc.devRef .tc main_v4) = W2 m ρ c (Proc.devRef .tc main_v4) by stretch_keeps hostOps1).trans (W2_v4 m ρ c)
theorem W3_v5 : W3 m ρ c (Proc.devRef .tc main_v5) = w4T m c :=
  (show StableHlo.after hostOps1 (W2 m ρ c) (Proc.devRef .tc main_v5) = W2 m ρ c (Proc.devRef .tc main_v5) by stretch_keeps hostOps1).trans (W2_v5 m ρ c)
theorem W3_v6 : W3 m ρ c (Proc.devRef .tc main_v6) = col (w6 m c) :=
  (show StableHlo.after hostOps1 (W2 m ρ c) (Proc.devRef .tc main_v6) = W2 m ρ c (Proc.devRef .tc main_v6) by stretch_keeps hostOps1).trans (W2_v6 m ρ c)
theorem W3_arg2 : W3 m ρ c (Proc.devRef .tc main_arg2) = ea2 m c :=
  (show StableHlo.after hostOps1 (W2 m ρ c) (Proc.devRef .tc main_arg2) = W2 m ρ c (Proc.devRef .tc main_arg2) by stretch_keeps hostOps1).trans (W2_arg2 m ρ c)
theorem W3_arg5 : W3 m ρ c (Proc.devRef .tc main_arg5) = b5 m c :=
  (show StableHlo.after hostOps1 (W2 m ρ c) (Proc.devRef .tc main_arg5) = W2 m ρ c (Proc.devRef .tc main_arg5) by stretch_keeps hostOps1).trans (W2_arg5 m ρ c)
theorem W3_arg7 : W3 m ρ c (Proc.devRef .tc main_arg7) = b7 m c :=
  (show StableHlo.after hostOps1 (W2 m ρ c) (Proc.devRef .tc main_arg7) = W2 m ρ c (Proc.devRef .tc main_arg7) by stretch_keeps hostOps1).trans (W2_arg7 m ρ c)
theorem W3_v26 : W3 m ρ c (Proc.devRef .tc main_v26) = h1 m c :=
  (show StableHlo.after hostOps1 (W2 m ρ c) (Proc.devRef .tc main_v26) = W2 m ρ c (Proc.devRef .tc main_v26) by stretch_keeps hostOps1).trans (W2_v26 m ρ c)

set_option maxHeartbeats 2000000 in
theorem W3_v39 : W3 m ρ c (Proc.devRef .tc main_v39) = kagg (h1 m c) (e1 m c) (ea2 m c) := by
  show StableHlo.after hostOps1 (W2 m ρ c) (Proc.devRef .tc main_v39) = _
  unfold kagg
  dsimp only [hostOps1]; after_results_simp
  rw [W2_v1, W2_v3, W2_arg2, W2_v26] <;> rfl
theorem W3_v41 : W3 m ρ c (Proc.devRef .tc main_v41) = mat1 (w3 m c) := by
  show StableHlo.after hostOps1 (W2 m ρ c) (Proc.devRef .tc main_v41) = _
  unfold mat1
  dsimp only [hostOps1]; after_results_simp
  rw [W2_v4] <;> rfl
theorem W3_v43 : W3 m ρ c (Proc.devRef .tc main_v43) = mat1 (w4 m c) := by
  show StableHlo.after hostOps1 (W2 m ρ c) (Proc.devRef .tc main_v43) = _
  unfold mat1
  dsimp only [hostOps1]; after_results_simp
  rw [W2_v5] <;> rfl
theorem W3_v45 : W3 m ρ c (Proc.devRef .tc main_v45) = row1 (b5 m c) := by
  show StableHlo.after hostOps1 (W2 m ρ c) (Proc.devRef .tc main_v45) = _
  unfold row1
  dsimp only [hostOps1]; after_results_simp
  rw [W2_arg5] <;> rfl

/-- The second layer's output, in the kernel's layout. -/
abbrev h2 : FVec Ideal S100000x64 .f32 :=
  Cert.KRows.rows (kagg (h1 m c) (e1 m c) (ea2 m c)) (h1 m c) (mat1 (w3 m c)) (mat1 (w4 m c)) (row1 (b5 m c))

/-- The second region leaves the second layer's output in its output array. -/
theorem W4_v46 : W4 m ρ c (Proc.devRef .tc main_v46) = h2 m c := by
  refine (W4_arr m ρ c 5).trans ((Cert.KRegion1.final (V3 m ρ) c).trans ?_)
  show Cert.KRows.rows (W3 m ρ c (Proc.devRef .tc main_v39)) (W3 m ρ c (Proc.devRef .tc main_v26))
      (W3 m ρ c (Proc.devRef .tc main_v41)) (W3 m ρ c (Proc.devRef .tc main_v43)) (W3 m ρ c (Proc.devRef .tc main_v45)) = _
  rw [W3_v39, W3_v26, W3_v41, W3_v43, W3_v45]

/-! ## Across the second region and the third stretch -/

theorem W4_v1 : W4 m ρ c (Proc.devRef .tc main_v1) = src m c := (W4_of_ne m ρ c main_v1 (by decide)).trans (W3_v1 m ρ c)
theorem W4_v3 : W4 m ρ c (Proc.devRef .tc main_v3) = dst m c := (W4_of_ne m ρ c main_v3 (by decide)).trans (W3_v3 m ρ c)
theorem W4_v4 : W4 m ρ c (Proc.devRef .tc main_v4) = w3T m c := (W4_of_ne m ρ c main_v4 (by decide)).trans (W3_v4 m ρ c)
theorem W4_v5 : W4 m ρ c (Proc.devRef .tc main_v5) = w4T m c := (W4_of_ne m ρ c main_v5 (by decide)).trans (W3_v5 m ρ c)
theorem W4_v6 : W4 m ρ c (Proc.devRef .tc main_v6) = col (w6 m c) := (W4_of_ne m ρ c main_v6 (by decide)).trans (W3_v6 m ρ c)
theorem W4_arg2 : W4 m ρ c (Proc.devRef .tc main_arg2) = ea2 m c := (W4_of_ne m ρ c main_arg2 (by decide)).trans (W3_arg2 m ρ c)
theorem W4_arg5 : W4 m ρ c (Proc.devRef .tc main_arg5) = b5 m c := (W4_of_ne m ρ c main_arg5 (by decide)).trans (W3_arg5 m ρ c)
theorem W4_arg7 : W4 m ρ c (Proc.devRef .tc main_arg7) = b7 m c := (W4_of_ne m ρ c main_arg7 (by decide)).trans (W3_arg7 m ρ c)

theorem W5_v6 : W5 m ρ c (Proc.devRef .tc main_v6) = col (w6 m c) :=
  (show StableHlo.after hostOps2 (W4 m ρ c) (Proc.devRef .tc main_v6) = W4 m ρ c (Proc.devRef .tc main_v6) by stretch_keeps hostOps2).trans (W4_v6 m ρ c)
theorem W5_arg7 : W5 m ρ c (Proc.devRef .tc main_arg7) = b7 m c :=
  (show StableHlo.after hostOps2 (W4 m ρ c) (Proc.devRef .tc main_arg7) = W4 m ρ c (Proc.devRef .tc main_arg7) by stretch_keeps hostOps2).trans (W4_arg7 m ρ c)
theorem W5_v46 : W5 m ρ c (Proc.devRef .tc main_v46) = h2 m c :=
  (show StableHlo.after hostOps2 (W4 m ρ c) (Proc.devRef .tc main_v46) = W4 m ρ c (Proc.devRef .tc main_v46) by stretch_keeps hostOps2).trans (W4_v46 m ρ c)

set_option maxHeartbeats 2000000 in
theorem W5_v59 : W5 m ρ c (Proc.devRef .tc main_v59) = kagg (h2 m c) (e1 m c) (ea2 m c) := by
  show StableHlo.after hostOps2 (W4 m ρ c) (Proc.devRef .tc main_v59) = _
  unfold kagg
  dsimp only [hostOps2]; after_results_simp
  rw [W4_v1, W4_v3, W4_arg2, W4_v46] <;> rfl
theorem W5_v61 : W5 m ρ c (Proc.devRef .tc main_v61) = mat2 (w3 m c) := by
  show StableHlo.after hostOps2 (W4 m ρ c) (Proc.devRef .tc main_v61) = _
  unfold mat2
  dsimp only [hostOps2]; after_results_simp
  rw [W4_v4] <;> rfl
theorem W5_v63 : W5 m ρ c (Proc.devRef .tc main_v63) = mat2 (w4 m c) := by
  show StableHlo.after hostOps2 (W4 m ρ c) (Proc.devRef .tc main_v63) = _
  unfold mat2
  dsimp only [hostOps2]; after_results_simp
  rw [W4_v5] <;> rfl
theorem W5_v65 : W5 m ρ c (Proc.devRef .tc main_v65) = row2 (b5 m c) := by
  show StableHlo.after hostOps2 (W4 m ρ c) (Proc.devRef .tc main_v65) = _
  unfold row2
  dsimp only [hostOps2]; after_results_simp
  rw [W4_arg5] <;> rfl

/-- The third layer's output, in the kernel's layout. -/
abbrev h3 : FVec Ideal S100000x64 .f32 :=
  Cert.KRows.rows (kagg (h2 m c) (e1 m c) (ea2 m c)) (h2 m c) (mat2 (w3 m c)) (mat2 (w4 m c)) (row2 (b5 m c))

/-- The third region leaves the third layer's output in its output array. -/
theorem W6_v66 : W6 m ρ c (Proc.devRef .tc main_v66) = h3 m c := by
  refine (W6_arr m ρ c 5).trans ((Cert.KRegion2.final (V5 m ρ) c).trans ?_)
  show Cert.KRows.rows (W5 m ρ c (Proc.devRef .tc main_v59)) (W5 m ρ c (Proc.devRef .tc main_v46))
      (W5 m ρ c (Proc.devRef .tc main_v61)) (W5 m ρ c (Proc.devRef .tc main_v63)) (W5 m ρ c (Proc.devRef .tc main_v65)) = _
  rw [W5_v59, W5_v46, W5_v61, W5_v63, W5_v65]

/-! ## The last region -/

theorem W6_v6 : W6 m ρ c (Proc.devRef .tc main_v6) = col (w6 m c) := (W6_of_ne m ρ c main_v6 (by decide)).trans (W5_v6 m ρ c)
theorem W6_arg7 : W6 m ρ c (Proc.devRef .tc main_arg7) = b7 m c := (W6_of_ne m ρ c main_arg7 (by decide)).trans (W5_arg7 m ρ c)

/-- THE RESULT ARRAY at the last boundary: the output projection of three nested layers of the arguments. -/
theorem W7_v67 : W7 m ρ c (Proc.devRef .tc main_v67) = Cert.KRows.project (h3 m c) (col (w6 m c)) (b7 m c) := by
  refine (W7_arr m ρ c 3).trans ((Cert.KRegion3.final (V6 m ρ) c).trans ?_)
  show Cert.KRows.project (W6 m ρ c (Proc.devRef .tc main_v66)) (W6 m ρ c (Proc.devRef .tc main_v6))
      (W6 m ρ c (Proc.devRef .tc main_arg7)) = _
  rw [W6_v66, W6_v6, W6_arg7]

end Cert.KHost

end
-- ==== Proof.Net.lean ====
/-
  The network as mathematics, over the extended reals.

  A graph with 100000 nodes carries a 64-channel feature row per node. One layer forms, for every node, an aggregate
  row (the sum, over the edges arriving at the node, of the source node's row scaled by the edge's weight: here a
  parameter `A`, the same function of the features on both sides of the claim) and then, at node `r` and channel `c`,

      max (Σ_k agg(r,k) · Wrel(l,c,k) + Σ_k x(r,k) · Wroot(l,c,k) + b(l,c), 0)

  with `l` the layer's number among three stacked weight matrices. After three layers one output channel is read off:
  Σ_k x(r,k) · Wout(0,k) + bout(0). Sums and products are those of the extended reals; the order in which the three
  summands of a layer are added does not matter there (addition is commutative and associative), so each program's own
  grouping can be brought to the one written here.
-/
import Idealize.ShloMosaic.Lib.ValueIdx

noncomputable section

namespace Cert.Net

open Idealize.ShloMosaic Idealize.ShloMosaic.ValueIdx

/-- Node features: 100000 rows of 64 channels. -/
abbrev Feat : Shape := ⟨2, ![100000, 64]⟩
/-- Three stacked 64 × 64 weight matrices (layer, output channel, input channel). -/
abbrev Wts : Shape := ⟨3, ![3, 64, 64]⟩
/-- Three stacked bias rows. -/
abbrev Bias : Shape := ⟨2, ![3, 64]⟩
/-- The output projection's one weight row. -/
abbrev OutW : Shape := ⟨2, ![1, 64]⟩
/-- The output projection's one bias. -/
abbrev OutB : Shape := ⟨1, ![1]⟩
/-- One output value per node. -/
abbrev Out : Shape := ⟨2, ![100000, 1]⟩

/-- The float zero as the programs spell it. -/
abbrev zero : EReal := Ideal.ofBits .f32 0x00000000#32

/-- Entry `(r, c)` of layer `l`: the aggregate's and the features' rows through the layer's two matrices, the bias,
    and the positive part. -/
def layerAt (agg x : Feat.Idx → EReal) (wrel wroot : Wts.Idx → EReal) (b : Bias.Idx → EReal) (l : Fin 3)
    (r : Fin 100000) (c : Fin 64) : EReal :=
  max ((∑ k : Fin 64, agg (ix2 r k) * wrel (ix3 l c k) + ∑ k : Fin 64, x (ix2 r k) * wroot (ix3 l c k)) + b (ix2 l c)) zero

/-- Layer `l` as an array. -/
def layer (agg x : Feat.Idx → EReal) (wrel wroot : Wts.Idx → EReal) (b : Bias.Idx → EReal) (l : Fin 3) :
    Feat.Idx → EReal :=
  fun i => layerAt agg x wrel wroot b l (i 0) (i 1)

/-- The output value of node `r`. -/
def outAt (x : Feat.Idx → EReal) (w : OutW.Idx → EReal) (bo : OutB.Idx → EReal) (r : Fin 100000) : EReal :=
  ∑ k : Fin 64, x (ix2 r k) * w (ix2 (0 : Fin 1) k) + bo (ix1 (0 : Fin 1))

/-- The output projection as an array. -/
def out (x : Feat.Idx → EReal) (w : OutW.Idx → EReal) (bo : OutB.Idx → EReal) : Out.Idx → EReal :=
  fun i => outAt x w bo (i 0)

/-- Three layers, each aggregating the features it is given by `A`, then the output projection. -/
def net (A : (Feat.Idx → EReal) → (Feat.Idx → EReal)) (x : Feat.Idx → EReal) (wrel wroot : Wts.Idx → EReal)
    (b : Bias.Idx → EReal) (w : OutW.Idx → EReal) (bo : OutB.Idx → EReal) : Out.Idx → EReal :=
  out (layer (A (layer (A (layer (A x) x wrel wroot b 0)) (layer (A x) x wrel wroot b 0) wrel wroot b 1))
        (layer (A (layer (A x) x wrel wroot b 0)) (layer (A x) x wrel wroot b 0) wrel wroot b 1) wrel wroot b 2) w bo

/-- A layer read at an index given by coordinates. -/
theorem layer_ix2 (agg x : Feat.Idx → EReal) (wrel wroot : Wts.Idx → EReal) (b : Bias.Idx → EReal) (l : Fin 3)
    (r : Fin 100000) (c : Fin 64) : layer agg x wrel wroot b l (ix2 r c) = layerAt agg x wrel wroot b l r c := rfl

/-- The output projection read at an index given by coordinates. -/
theorem out_ix2 (x : Feat.Idx → EReal) (w : OutW.Idx → EReal) (bo : OutB.Idx → EReal) (r : Fin 100000) (u : Fin 1) :
    out x w bo (ix2 r u) = outAt x w bo r := rfl

/-- The two groupings of a layer's three summands agree: `(p + q) + s = (p + s) + q` on the extended reals. -/
theorem regroup (p q s : EReal) : p + s + q = p + q + s := add_right_comm p s q

end Cert.Net

end
-- ==== Proof.LibSliceLeading.lean ====
/-
  A rank-3 array cut along its leading axis, read at coordinates.

  For any extents: a unit-stride slice of an `[n0, n1, n2]` array that starts at `o` on the leading axis and at zero on
  the other two reads, at `(j, a, e)`, the source at `(o + j, a, e)`. This is how one matrix is taken out of a stack
  (the slice `[l : l + 1, :, :]`), before the unit axis that is left is dropped.
-/
import Idealize.ShloMosaic.Lib.Pipeline.Value
import Idealize.ShloMosaic.Lib.ValueIdx

namespace Cert.LibSliceLeading

open Idealize.ShloMosaic Idealize.ShloMosaic.ValueIdx

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.LibSliceLeading
-- ==== Proof.KLayout.lean ====
/-
  The kernel's layout of the parameters against the network's.

  The network indexes a stacked weight (layer, output channel, input channel) and a stacked bias (layer, channel). The
  kernel's host program swaps the last two axes of a stack once, cuts layer l's matrix out along the leading axis and
  drops the unit axis that is left, so its matrix at (input channel k, output channel c) is the stacked weight at
  (l, c, k); it cuts the bias row out the same way, so its row at c is the stacked bias at (l, c); and it transposes the
  one output weight row to a column, whose entry (k, 0) is the row's entry (0, k). Put into the sums of a layer,
  Σ_k a(r,k) · mat_l(k,c) is Σ_k a(r,k) · W(l,c,k) term by term, which makes the kernel's layer on whole arrays the
  network's layer l, and its output projection the network's.
-/
import proofs.«146473_j62079457296460_1_alg».proof.Proof.KAgg
import proofs.«146473_j62079457296460_1_alg».proof.Proof.KRows
import proofs.«146473_j62079457296460_1_alg».proof.Proof.Net
import proofs.«146473_j62079457296460_1_alg».proof.Proof.LibSliceLeading
import Idealize.ShloMosaic.Lib.ValueLayout
import Idealize.ShloMosaic.Lib.Pipeline.Value

noncomputable section
namespace Cert.KLayout
open Cert.KernelIdeal Idealize.ShloMosaic Idealize.ShloMosaic.ValueIdx Cert.LibSliceLeading

/-! ## The parameters in the kernel's layout, read at coordinates -/

/-- Layer 0's matrix in the kernel's layout, at (input channel `k`, output channel `c`), is the stacked weight at
    `(0, c, k)`: the unit axis put back, the cut moved to position 0 of the stack, the last two axes swapped. -/
theorem mat0_at (w : FVec Ideal S3x64x64 .f32) (k c : Fin 64) : Cert.KAgg.mat0 w (ix2 k c) = w (ix3 (0 : Fin 3) c k) := by
  unfold Cert.KAgg.mat0
  refine (shapeCast_1ab_ab_apply _ _ k c).trans ?_
  refine (slice3_axis0_apply 0 _ _ (0 : Fin 1) k c (0 : Fin 3) rfl).trans ?_
  exact transpose_ix3_021_apply w _ (0 : Fin 3) k c

/-- Layer 1's matrix in the kernel's layout, at (input channel `k`, output channel `c`), is the stacked weight at
    `(1, c, k)`: the unit axis put back, the cut moved to position 1 of the stack, the last two axes swapped. -/
theorem mat1_at (w : FVec Ideal S3x64x64 .f32) (k c : Fin 64) : Cert.KAgg.mat1 w (ix2 k c) = w (ix3 (1 : Fin 3) c k) := by
  unfold Cert.KAgg.mat1
  refine (shapeCast_1ab_ab_apply _ _ k c).trans ?_
  refine (slice3_axis0_apply 1 _ _ (0 : Fin 1) k c (1 : Fin 3) rfl).trans ?_
  exact transpose_ix3_021_apply w _ (1 : Fin 3) k c

/-- Layer 2's matrix in the kernel's layout, at (input channel `k`, output channel `c`), is the stacked weight at
    `(2, c, k)`: the unit axis put back, the cut moved to position 2 of the stack, the last two axes swapped. -/
theorem mat2_at (w : FVec Ideal S3x64x64 .f32) (k c : Fin 64) : Cert.KAgg.mat2 w (ix2 k c) = w (ix3 (2 : Fin 3) c k) := by
  unfold Cert.KAgg.mat2
  refine (shapeCast_1ab_ab_apply _ _ k c).trans ?_
  refine (slice3_axis0_apply 2 _ _ (0 : Fin 1) k c (2 : Fin 3) rfl).trans ?_
  exact transpose_ix3_021_apply w _ (2 : Fin 3) k c

/-- Layer 0's bias row at channel `c` is the stacked bias at `(0, c)`. -/
theorem row0_at (b : FVec Ideal S3x64 .f32) (c : Fin 64) : Cert.KAgg.row0 b (ix1 c) = b (ix2 (0 : Fin 3) c) := by
  unfold Cert.KAgg.row0
  refine (shapeCast_1a_a_apply _ _ c).trans ?_
  exact slice2_axis0_apply 0 b _ (0 : Fin 1) c (0 : Fin 3) rfl

/-- Layer 1's bias row at channel `c` is the stacked bias at `(1, c)`. -/
theorem row1_at (b : FVec Ideal S3x64 .f32) (c : Fin 64) : Cert.KAgg.row1 b (ix1 c) = b (ix2 (1 : Fin 3) c) := by
  unfold Cert.KAgg.row1
  refine (shapeCast_1a_a_apply _ _ c).trans ?_
  exact slice2_axis0_apply 1 b _ (0 : Fin 1) c (1 : Fin 3) rfl

/-- Layer 2's bias row at channel `c` is the stacked bias at `(2, c)`. -/
theorem row2_at (b : FVec Ideal S3x64 .f32) (c : Fin 64) : Cert.KAgg.row2 b (ix1 c) = b (ix2 (2 : Fin 3) c) := by
  unfold Cert.KAgg.row2
  refine (shapeCast_1a_a_apply _ _ c).trans ?_
  exact slice2_axis0_apply 2 b _ (0 : Fin 1) c (2 : Fin 3) rfl

/-- The output weight column at `(k, u)` is the output weight row at `(0, k)`: the column has one entry per row. -/
theorem col_at (w : FVec Ideal S1x64 .f32) (k : Fin 64) (u : Fin 1) : Cert.KAgg.col w (ix2 k u) = w (ix2 (0 : Fin 1) k) := by
  obtain rfl : u = 0 := Subsingleton.elim _ _
  unfold Cert.KAgg.col
  exact transpose_ix2_apply w _ k (0 : Fin 1)

/-! ## A layer and the output projection -/

/-- A layer on whole arrays whose two matrices at `(k, c)` are the stacked weights at `(l, c, k)` and whose bias row at
    `c` is the stacked bias at `(l, c)` is the network's layer `l`: the sums agree term by term. -/
theorem rows_eq_layer (agg x : FVec Ideal S100000x64 .f32) (wr wo : FVec Ideal S64x64 .f32) (b : FVec Ideal S64 .f32)
    (w3 w4 : FVec Ideal S3x64x64 .f32) (b5 : FVec Ideal S3x64 .f32) (l : Fin 3)
    (hr : ∀ k c : Fin 64, wr (ix2 k c) = w3 (ix3 l c k)) (ho : ∀ k c : Fin 64, wo (ix2 k c) = w4 (ix3 l c k))
    (hb : ∀ c : Fin 64, b (ix1 c) = b5 (ix2 l c)) :
    Cert.KRows.rows agg x wr wo b = Cert.Net.layer agg x w3 w4 b5 l := by
  funext i
  obtain ⟨r, c, rfl⟩ : ∃ (r : Fin 100000) (c : Fin 64), i = ix2 r c := ⟨i 0, i 1, eq_ix2 i⟩
  show max ((∑ k : Fin 64, agg (ix2 r k) * wr (ix2 k c) + ∑ k : Fin 64, x (ix2 r k) * wo (ix2 k c)) + b (ix1 c))
      (Ideal.ofBits .f32 0x00000000#32)
    = max ((∑ k : Fin 64, agg (ix2 r k) * w3 (ix3 l c k) + ∑ k : Fin 64, x (ix2 r k) * w4 (ix3 l c k)) + b5 (ix2 l c))
      Cert.Net.zero
  have e1 : ∑ k : Fin 64, agg (ix2 r k) * wr (ix2 k c) = ∑ k : Fin 64, agg (ix2 r k) * w3 (ix3 l c k) :=
    Finset.sum_congr rfl fun k _ => by rw [hr k c]
  have e2 : ∑ k : Fin 64, x (ix2 r k) * wo (ix2 k c) = ∑ k : Fin 64, x (ix2 r k) * w4 (ix3 l c k) :=
    Finset.sum_congr rfl fun k _ => by rw [ho k c]
  rw [e1, e2, hb c]

/-- The kernel's layer on whole arrays, fed layer 0's parameters in the kernel's layout, is the network's layer 0. -/
theorem rows_layer0 (agg x : FVec Ideal S100000x64 .f32) (w3 w4 : FVec Ideal S3x64x64 .f32) (b5 : FVec Ideal S3x64 .f32) :
    Cert.KRows.rows agg x (Cert.KAgg.mat0 w3) (Cert.KAgg.mat0 w4) (Cert.KAgg.row0 b5) = Cert.Net.layer agg x w3 w4 b5 0 :=
  rows_eq_layer agg x _ _ _ w3 w4 b5 0 (mat0_at w3) (mat0_at w4) (row0_at b5)

/-- The kernel's layer on whole arrays, fed layer 1's parameters in the kernel's layout, is the network's layer 1. -/
theorem rows_layer1 (agg x : FVec Ideal S100000x64 .f32) (w3 w4 : FVec Ideal S3x64x64 .f32) (b5 : FVec Ideal S3x64 .f32) :
    Cert.KRows.rows agg x (Cert.KAgg.mat1 w3) (Cert.KAgg.mat1 w4) (Cert.KAgg.row1 b5) = Cert.Net.layer agg x w3 w4 b5 1 :=
  rows_eq_layer agg x _ _ _ w3 w4 b5 1 (mat1_at w3) (mat1_at w4) (row1_at b5)

/-- The kernel's layer on whole arrays, fed layer 2's parameters in the kernel's layout, is the network's layer 2. -/
theorem rows_layer2 (agg x : FVec Ideal S100000x64 .f32) (w3 w4 : FVec Ideal S3x64x64 .f32) (b5 : FVec Ideal S3x64 .f32) :
    Cert.KRows.rows agg x (Cert.KAgg.mat2 w3) (Cert.KAgg.mat2 w4) (Cert.KAgg.row2 b5) = Cert.Net.layer agg x w3 w4 b5 2 :=
  rows_eq_layer agg x _ _ _ w3 w4 b5 2 (mat2_at w3) (mat2_at w4) (row2_at b5)

/-- The kernel's output projection, fed the output weight as a column, is the network's. -/
theorem project_out (x : FVec Ideal S100000x64 .f32) (w6 : FVec Ideal S1x64 .f32) (b7 : FVec Ideal S1 .f32) :
    Cert.KRows.project x (Cert.KAgg.col w6) b7 = Cert.Net.out x w6 b7 := by
  funext i
  obtain ⟨r, u, rfl⟩ : ∃ (r : Fin 100000) (u : Fin 1), i = ix2 r u := ⟨i 0, i 1, eq_ix2 i⟩
  show ∑ k : Fin 64, x (ix2 r k) * Cert.KAgg.col w6 (ix2 k u) + b7 (ix1 (0 : Fin 1))
    = ∑ k : Fin 64, x (ix2 r k) * w6 (ix2 (0 : Fin 1) k) + b7 (ix1 (0 : Fin 1))
  have e : ∑ k : Fin 64, x (ix2 r k) * Cert.KAgg.col w6 (ix2 k u) = ∑ k : Fin 64, x (ix2 r k) * w6 (ix2 (0 : Fin 1) k) :=
    Finset.sum_congr rfl fun k _ => by rw [col_at w6 k u]
  rw [e]

end Cert.KLayout
end
-- ==== Proof.AggSame.lean ====
/-
  The kernel's aggregation is the reference's.

  Both host programs form the aggregate of a feature array in the same way: cut the source row and the destination row
  out of the 2 × 1600000 edge list and flatten them, wrap a negative source index by adding 100000, gather the feature
  rows of the sources, scale each by its edge's weight spread along the 64 channels, and scatter-add the scaled rows into
  a zero 100000 × 64 array at the destinations. The two programs name their shapes, their dimension records and the
  side conditions of their layout operations separately, but the names stand for the same literals, and a side
  condition is a proposition, so the two expressions are one and the same function of the features, the edge list and
  the edge weights.
-/
import proofs.«146473_j62079457296460_1_alg».proof.Proof.KAgg
import proofs.«146473_j62079457296460_1_alg».proof.Proof.Gen.ReferenceIdeal.Read

noncomputable section
namespace Cert.AggSame
open Idealize.ShloMosaic

/-- The aggregate the kernel's host program forms is the one the reference forms, on every feature array, edge list
    and edge-weight array. -/
theorem kagg_eq (h : FVec Ideal Cert.KernelIdeal.S100000x64 .f32) (e : IVec Cert.KernelIdeal.S2x1600000 32)
    (ea : FVec Ideal Cert.KernelIdeal.S1600000 .f32) :
    Cert.KAgg.kagg h e ea = Cert.ReferenceIdeal.Read.val_main_v16 (F := Ideal) h e ea := by
  unfold Cert.KAgg.kagg
  unfold Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
  rfl

end Cert.AggSame
end
-- ==== Proof.RefNet.lean ====
/-
  The reference program, read as the network over the extended reals.

  The reference computes three times  x := max (agg x · Wrelᵀ + b + x · Wrootᵀ, 0)  and then  x · Woutᵀ + bout,
  where  agg  gathers the source rows of the graph's edges, scales them by the edge weights and adds them up at the
  edges' target rows. Read at one node r and one channel c, each of the two matrix products of a layer l is a sum over
  the 64 input channels k of a row entry (r, k) times the weight (l, c, k): the program takes the layer's matrix out of
  the stack of three, flattens the leading axis of extent one away and transposes, which on coordinates is
  (k, c) ↦ (c, k) ↦ (0, c, k) ↦ (l, c, k); the bias row is read at (l, c) the same way. The aggregation is not
  opened: the three layers run the same aggregation on three different feature arrays, and it is kept as one unknown
  function of the features. The reference adds the bias before the second product, the network after it; on the
  extended reals the two groupings of the three summands agree.
-/
import proofs.«146473_j62079457296460_1_alg».proof.Proof.Gen.ReferenceIdeal.Read
import proofs.«146473_j62079457296460_1_alg».proof.Proof.Net

noncomputable section
namespace Cert.RefNet
open Cert.ReferenceIdeal Cert.ReferenceIdeal.Read Idealize.ShloMosaic Idealize.ShloMosaic.ValueIdx

/-- The reference's aggregation of a feature array, as a function of the features (edge list x1, edge weights x2). -/
abbrev agg (x1 : (⟨S2x1600000, .i32⟩ : BufTy).Contents (Elt Ideal)) (x2 : (⟨S1600000, .f32⟩ : BufTy).Contents (Elt Ideal)) :
    (Cert.Net.Feat.Idx → EReal) → (Cert.Net.Feat.Idx → EReal) := fun h => val_main_v16 (F := Ideal) h x1 x2

/-! ## The first layer (weights and bias number 0 of the three) -/

/-- The first layer's first product reads its left operand's row `r` at column `k`. -/
theorem rel_row0 (r : Fin 100000) (c k : Fin 64) : lidx_main_v20 (ix2 r c) k = ix2 r k :=
  funext fun a => Fin.ext (by match a with | ⟨0, _⟩ => rfl | ⟨1, _⟩ => rfl)

/-- Its right operand at `(k, c)`, traced back through the transpose, the reshape and the slice, is the stacked
    weight at `(0, c, k)`. -/
theorem rel_weight_index0 (r : Fin 100000) (c k : Fin 64) :
    idx_main_v17 (idx_main_v18 (idx_main_v19 (ridx_main_v20 (ix2 r c) k))) = ix3 (0 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The first layer's first product at `(r, c)`: the row `r` of its left operand against the weight row `(0, c)`. -/
theorem rel_sum0 (y : (⟨S100000x64, .f32⟩ : BufTy).Contents (Elt Ideal)) (x3 : (⟨S3x64x64, .f32⟩ : BufTy).Contents (Elt Ideal)) (r : Fin 100000) (c : Fin 64) :
    ∑ k : Fin 64, y (lidx_main_v20 (ix2 r c) k) * val_main_v19 (F := Ideal) x3 (ridx_main_v20 (ix2 r c) k)
      = ∑ k : Fin 64, y (ix2 r k) * x3 (ix3 (0 : Fin 3) c k) :=
  Finset.sum_congr rfl fun k _ => by
    rw [val_main_v19_apply, val_main_v18_apply, val_main_v17_apply, rel_weight_index0, rel_row0]

/-- The first layer's second product reads its left operand's row `r` at column `k`. -/
theorem root_row0 (r : Fin 100000) (c k : Fin 64) : lidx_main_v29 (ix2 r c) k = ix2 r k :=
  funext fun a => Fin.ext (by match a with | ⟨0, _⟩ => rfl | ⟨1, _⟩ => rfl)

/-- Its right operand at `(k, c)` is the second stacked weight at `(0, c, k)`. -/
theorem root_weight_index0 (r : Fin 100000) (c k : Fin 64) :
    idx_main_v26 (idx_main_v27 (idx_main_v28 (ridx_main_v29 (ix2 r c) k))) = ix3 (0 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The first layer's second product at `(r, c)`. -/
theorem root_sum0 (y : (⟨S100000x64, .f32⟩ : BufTy).Contents (Elt Ideal)) (x4 : (⟨S3x64x64, .f32⟩ : BufTy).Contents (Elt Ideal)) (r : Fin 100000) (c : Fin 64) :
    ∑ k : Fin 64, y (lidx_main_v29 (ix2 r c) k) * val_main_v28 (F := Ideal) x4 (ridx_main_v29 (ix2 r c) k)
      = ∑ k : Fin 64, y (ix2 r k) * x4 (ix3 (0 : Fin 3) c k) :=
  Finset.sum_congr rfl fun k _ => by
    rw [val_main_v28_apply, val_main_v27_apply, val_main_v26_apply, root_weight_index0, root_row0]

/-- The bias broadcast over the rows, traced back to the stacked bias, is read at `(0, c)`. -/
theorem bias_index0 (r : Fin 100000) (c : Fin 64) :
    idx_main_v21 (idx_main_v22 (idx_main_v23 (idx_main_v24 (ix2 r c)))) = ix2 (0 : Fin 3) c :=
  funext fun a => Fin.ext (by
    match a with
    | ⟨0, _⟩ => rfl
    | ⟨1, _⟩ => show c.val % 64 = c.val; have := c.isLt; omega)

/-- The first layer of the reference at `(r, c)` is the network's layer 0 there, on the aggregate and the features the
    reference feeds it; the reference adds the bias before the second product. -/
theorem layer0_at (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (r : Fin 100000) (c : Fin 64) :
    val_main_v31 (F := Ideal) x0 x1 x2 x3 x4 x5 (ix2 r c)
      = Cert.Net.layerAt (val_main_v16 (F := Ideal) x0 x1 x2) (x0) x3 x4 x5 0 r c := by
  unfold Cert.Net.layerAt
  rw [val_main_v31_apply, val_main_v30_apply, val_main_v25_apply, val_main_v20_apply, val_main_v29_apply,
    val_main_v24_apply, val_main_v23_apply, val_main_v22_apply, val_main_v21_apply, val_main_call0_v0_apply,
    val_main_call0_cst_apply, rel_sum0 (val_main_v16 (F := Ideal) x0 x1 x2), root_sum0 (x0), bias_index0]
  exact congrArg (fun t => max t Cert.Net.zero) (Cert.Net.regroup _ _ _)

/-- The first layer of the reference, as an array. -/
theorem layer0_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) :
    val_main_v31 (F := Ideal) x0 x1 x2 x3 x4 x5
      = Cert.Net.layer (val_main_v16 (F := Ideal) x0 x1 x2) (x0) x3 x4 x5 0 := by
  funext i
  obtain ⟨r, c, rfl⟩ : ∃ (r : Fin 100000) (c : Fin 64), i = ix2 r c := ⟨i 0, i 1, eq_ix2 i⟩
  rw [Cert.Net.layer_ix2]
  exact layer0_at x0 x1 x2 x3 x4 x5 r c

/-! ## The second layer (weights and bias number 1 of the three) -/

/-- The second layer's first product reads its left operand's row `r` at column `k`. -/
theorem rel_row1 (r : Fin 100000) (c k : Fin 64) : lidx_main_v48 (ix2 r c) k = ix2 r k :=
  funext fun a => Fin.ext (by match a with | ⟨0, _⟩ => rfl | ⟨1, _⟩ => rfl)

/-- Its right operand at `(k, c)`, traced back through the transpose, the reshape and the slice, is the stacked
    weight at `(1, c, k)`. -/
theorem rel_weight_index1 (r : Fin 100000) (c k : Fin 64) :
    idx_main_v45 (idx_main_v46 (idx_main_v47 (ridx_main_v48 (ix2 r c) k))) = ix3 (1 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The second layer's first product at `(r, c)`: the row `r` of its left operand against the weight row `(1, c)`. -/
theorem rel_sum1 (y : (⟨S100000x64, .f32⟩ : BufTy).Contents (Elt Ideal)) (x3 : (⟨S3x64x64, .f32⟩ : BufTy).Contents (Elt Ideal)) (r : Fin 100000) (c : Fin 64) :
    ∑ k : Fin 64, y (lidx_main_v48 (ix2 r c) k) * val_main_v47 (F := Ideal) x3 (ridx_main_v48 (ix2 r c) k)
      = ∑ k : Fin 64, y (ix2 r k) * x3 (ix3 (1 : Fin 3) c k) :=
  Finset.sum_congr rfl fun k _ => by
    rw [val_main_v47_apply, val_main_v46_apply, val_main_v45_apply, rel_weight_index1, rel_row1]

/-- The second layer's second product reads its left operand's row `r` at column `k`. -/
theorem root_row1 (r : Fin 100000) (c k : Fin 64) : lidx_main_v57 (ix2 r c) k = ix2 r k :=
  funext fun a => Fin.ext (by match a with | ⟨0, _⟩ => rfl | ⟨1, _⟩ => rfl)

/-- Its right operand at `(k, c)` is the second stacked weight at `(1, c, k)`. -/
theorem root_weight_index1 (r : Fin 100000) (c k : Fin 64) :
    idx_main_v54 (idx_main_v55 (idx_main_v56 (ridx_main_v57 (ix2 r c) k))) = ix3 (1 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The second layer's second product at `(r, c)`. -/
theorem root_sum1 (y : (⟨S100000x64, .f32⟩ : BufTy).Contents (Elt Ideal)) (x4 : (⟨S3x64x64, .f32⟩ : BufTy).Contents (Elt Ideal)) (r : Fin 100000) (c : Fin 64) :
    ∑ k : Fin 64, y (lidx_main_v57 (ix2 r c) k) * val_main_v56 (F := Ideal) x4 (ridx_main_v57 (ix2 r c) k)
      = ∑ k : Fin 64, y (ix2 r k) * x4 (ix3 (1 : Fin 3) c k) :=
  Finset.sum_congr rfl fun k _ => by
    rw [val_main_v56_apply, val_main_v55_apply, val_main_v54_apply, root_weight_index1, root_row1]

/-- The bias broadcast over the rows, traced back to the stacked bias, is read at `(1, c)`. -/
theorem bias_index1 (r : Fin 100000) (c : Fin 64) :
    idx_main_v49 (idx_main_v50 (idx_main_v51 (idx_main_v52 (ix2 r c)))) = ix2 (1 : Fin 3) c :=
  funext fun a => Fin.ext (by
    match a with
    | ⟨0, _⟩ => rfl
    | ⟨1, _⟩ => show c.val % 64 = c.val; have := c.isLt; omega)

/-- The second layer of the reference at `(r, c)` is the network's layer 1 there, on the aggregate and the features the
    reference feeds it; the reference adds the bias before the second product. -/
theorem layer1_at (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (r : Fin 100000) (c : Fin 64) :
    val_main_v59 (F := Ideal) x0 x1 x2 x3 x4 x5 (ix2 r c)
      = Cert.Net.layerAt (val_main_v44 (F := Ideal) x0 x1 x2 x3 x4 x5) (val_main_v31 (F := Ideal) x0 x1 x2 x3 x4 x5) x3 x4 x5 1 r c := by
  unfold Cert.Net.layerAt
  rw [val_main_v59_apply, val_main_v58_apply, val_main_v53_apply, val_main_v48_apply, val_main_v57_apply,
    val_main_v52_apply, val_main_v51_apply, val_main_v50_apply, val_main_v49_apply, val_main_call1_v0_apply,
    val_main_call1_cst_apply, rel_sum1 (val_main_v44 (F := Ideal) x0 x1 x2 x3 x4 x5), root_sum1 (val_main_v31 (F := Ideal) x0 x1 x2 x3 x4 x5), bias_index1]
  exact congrArg (fun t => max t Cert.Net.zero) (Cert.Net.regroup _ _ _)

/-- The second layer of the reference, as an array. -/
theorem layer1_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) :
    val_main_v59 (F := Ideal) x0 x1 x2 x3 x4 x5
      = Cert.Net.layer (val_main_v44 (F := Ideal) x0 x1 x2 x3 x4 x5) (val_main_v31 (F := Ideal) x0 x1 x2 x3 x4 x5) x3 x4 x5 1 := by
  funext i
  obtain ⟨r, c, rfl⟩ : ∃ (r : Fin 100000) (c : Fin 64), i = ix2 r c := ⟨i 0, i 1, eq_ix2 i⟩
  rw [Cert.Net.layer_ix2]
  exact layer1_at x0 x1 x2 x3 x4 x5 r c

/-! ## The third layer (weights and bias number 2 of the three) -/

/-- The third layer's first product reads its left operand's row `r` at column `k`. -/
theorem rel_row2 (r : Fin 100000) (c k : Fin 64) : lidx_main_v76 (ix2 r c) k = ix2 r k :=
  funext fun a => Fin.ext (by match a with | ⟨0, _⟩ => rfl | ⟨1, _⟩ => rfl)

/-- Its right operand at `(k, c)`, traced back through the transpose, the reshape and the slice, is the stacked
    weight at `(2, c, k)`. -/
theorem rel_weight_index2 (r : Fin 100000) (c k : Fin 64) :
    idx_main_v73 (idx_main_v74 (idx_main_v75 (ridx_main_v76 (ix2 r c) k))) = ix3 (2 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The third layer's first product at `(r, c)`: the row `r` of its left operand against the weight row `(2, c)`. -/
theorem rel_sum2 (y : (⟨S100000x64, .f32⟩ : BufTy).Contents (Elt Ideal)) (x3 : (⟨S3x64x64, .f32⟩ : BufTy).Contents (Elt Ideal)) (r : Fin 100000) (c : Fin 64) :
    ∑ k : Fin 64, y (lidx_main_v76 (ix2 r c) k) * val_main_v75 (F := Ideal) x3 (ridx_main_v76 (ix2 r c) k)
      = ∑ k : Fin 64, y (ix2 r k) * x3 (ix3 (2 : Fin 3) c k) :=
  Finset.sum_congr rfl fun k _ => by
    rw [val_main_v75_apply, val_main_v74_apply, val_main_v73_apply, rel_weight_index2, rel_row2]

/-- The third layer's second product reads its left operand's row `r` at column `k`. -/
theorem root_row2 (r : Fin 100000) (c k : Fin 64) : lidx_main_v85 (ix2 r c) k = ix2 r k :=
  funext fun a => Fin.ext (by match a with | ⟨0, _⟩ => rfl | ⟨1, _⟩ => rfl)

/-- Its right operand at `(k, c)` is the second stacked weight at `(2, c, k)`. -/
theorem root_weight_index2 (r : Fin 100000) (c k : Fin 64) :
    idx_main_v82 (idx_main_v83 (idx_main_v84 (ridx_main_v85 (ix2 r c) k))) = ix3 (2 : Fin 3) c k :=
  funext fun a => Fin.ext (by
    match a with
    | ⟨0, _⟩ => rfl
    | ⟨1, _⟩ => show (c.val * 64 + k.val) / 64 % 64 = c.val; have := k.isLt; omega
    | ⟨2, _⟩ => show (c.val * 64 + k.val) % 64 = k.val; have := k.isLt; omega)

/-- The third layer's second product at `(r, c)`. -/
theorem root_sum2 (y : (⟨S100000x64, .f32⟩ : BufTy).Contents (Elt Ideal)) (x4 : (⟨S3x64x64, .f32⟩ : BufTy).Contents (Elt Ideal)) (r : Fin 100000) (c : Fin 64) :
    ∑ k : Fin 64, y (lidx_main_v85 (ix2 r c) k) * val_main_v84 (F := Ideal) x4 (ridx_main_v85 (ix2 r c) k)
      = ∑ k : Fin 64, y (ix2 r k) * x4 (ix3 (2 : Fin 3) c k) :=
  Finset.sum_congr rfl fun k _ => by
    rw [val_main_v84_apply, val_main_v83_apply, val_main_v82_apply, root_weight_index2, root_row2]

/-- The bias broadcast over the rows, traced back to the stacked bias, is read at `(2, c)`. -/
theorem bias_index2 (r : Fin 100000) (c : Fin 64) :
    idx_main_v77 (idx_main_v78 (idx_main_v79 (idx_main_v80 (ix2 r c)))) = ix2 (2 : Fin 3) c :=
  funext fun a => Fin.ext (by
    match a with
    | ⟨0, _⟩ => rfl
    | ⟨1, _⟩ => show c.val % 64 = c.val; have := c.isLt; omega)

/-- The third layer of the reference at `(r, c)` is the network's layer 2 there, on the aggregate and the features the
    reference feeds it; the reference adds the bias before the second product. -/
theorem layer2_at (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (r : Fin 100000) (c : Fin 64) :
    val_main_v87 (F := Ideal) x0 x1 x2 x3 x4 x5 (ix2 r c)
      = Cert.Net.layerAt (val_main_v72 (F := Ideal) x0 x1 x2 x3 x4 x5) (val_main_v59 (F := Ideal) x0 x1 x2 x3 x4 x5) x3 x4 x5 2 r c := by
  unfold Cert.Net.layerAt
  rw [val_main_v87_apply, val_main_v86_apply, val_main_v81_apply, val_main_v76_apply, val_main_v85_apply,
    val_main_v80_apply, val_main_v79_apply, val_main_v78_apply, val_main_v77_apply, val_main_call2_v0_apply,
    val_main_call2_cst_apply, rel_sum2 (val_main_v72 (F := Ideal) x0 x1 x2 x3 x4 x5), root_sum2 (val_main_v59 (F := Ideal) x0 x1 x2 x3 x4 x5), bias_index2]
  exact congrArg (fun t => max t Cert.Net.zero) (Cert.Net.regroup _ _ _)

/-- The third layer of the reference, as an array. -/
theorem layer2_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) :
    val_main_v87 (F := Ideal) x0 x1 x2 x3 x4 x5
      = Cert.Net.layer (val_main_v72 (F := Ideal) x0 x1 x2 x3 x4 x5) (val_main_v59 (F := Ideal) x0 x1 x2 x3 x4 x5) x3 x4 x5 2 := by
  funext i
  obtain ⟨r, c, rfl⟩ : ∃ (r : Fin 100000) (c : Fin 64), i = ix2 r c := ⟨i 0, i 1, eq_ix2 i⟩
  rw [Cert.Net.layer_ix2]
  exact layer2_at x0 x1 x2 x3 x4 x5 r c

/-! ## The later layers aggregate the previous layer's output by the same operations -/

/-- The second layer's aggregate is the first layer's aggregation applied to the first layer's output: the two
    stretches of the program are the same operations on the same edge list and edge weights. -/
theorem agg1_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) :
    val_main_v44 (F := Ideal) x0 x1 x2 x3 x4 x5
      = val_main_v16 (F := Ideal) (val_main_v31 (F := Ideal) x0 x1 x2 x3 x4 x5) x1 x2 := by
  unfold val_main_v44 val_main_v43 val_main_v42 val_main_v41 val_main_v40 val_main_v39 val_main_v38 val_main_v37
    val_main_v36 val_main_v35 val_main_v34 val_main_v33 val_main_v32 val_main_cst_3 val_main_c_1 val_main_c_2
    val_main_v16 val_main_v15 val_main_v14 val_main_v13 val_main_v12 val_main_v11 val_main_v10 val_main_v9
    val_main_v8 val_main_v7 val_main_v6 val_main_v5 val_main_v4 val_main_cst val_main_c val_main_c_0
  rfl

/-- The third layer's aggregate is the same aggregation applied to the second layer's output. -/
theorem agg2_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) :
    val_main_v72 (F := Ideal) x0 x1 x2 x3 x4 x5
      = val_main_v16 (F := Ideal) (val_main_v59 (F := Ideal) x0 x1 x2 x3 x4 x5) x1 x2 := by
  unfold val_main_v72 val_main_v71 val_main_v70 val_main_v69 val_main_v68 val_main_v67 val_main_v66 val_main_v65
    val_main_v64 val_main_v63 val_main_v62 val_main_v61 val_main_v60 val_main_cst_6 val_main_c_4 val_main_c_5
    val_main_v16 val_main_v15 val_main_v14 val_main_v13 val_main_v12 val_main_v11 val_main_v10 val_main_v9
    val_main_v8 val_main_v7 val_main_v6 val_main_v5 val_main_v4 val_main_cst val_main_c val_main_c_0
  rfl

/-! ## The output projection -/

/-- The output product reads its left operand's row `r` at column `k`. -/
theorem out_row (r : Fin 100000) (u : Fin 1) (k : Fin 64) : lidx_main_v89 (ix2 r u) k = ix2 r k :=
  funext fun a => Fin.ext (by match a with | ⟨0, _⟩ => rfl | ⟨1, _⟩ => rfl)

/-- Its right operand at `(k, u)`, the transposed weight row, is the weight at `(0, k)`: the one output channel is `0`. -/
theorem out_weight_index (r : Fin 100000) (u : Fin 1) (k : Fin 64) :
    idx_main_v88 (ridx_main_v89 (ix2 r u) k) = ix2 (0 : Fin 1) k :=
  funext fun a => Fin.ext (by
    match a with
    | ⟨0, _⟩ => show u.val = 0; have := u.isLt; omega
    | ⟨1, _⟩ => rfl)

/-- The output bias, broadcast over the rows, is read at its one index. -/
theorem out_bias_index (r : Fin 100000) (u : Fin 1) : idx_main_v90 (idx_main_v91 (ix2 r u)) = ix1 (0 : Fin 1) :=
  funext fun a => Fin.ext (by match a with | ⟨0, _⟩ => rfl)

/-- The reference's result at node `r` is the network's output value of the third layer's features. -/
theorem out_at (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (x6 : (⟨S1x64, .f32⟩ : BufTy).Contents (Elt Ideal))
    (x7 : (⟨S1, .f32⟩ : BufTy).Contents (Elt Ideal)) (r : Fin 100000) (u : Fin 1) :
    val_main_v92 (F := Ideal) x0 x1 x2 x3 x4 x5 x6 x7 (ix2 r u)
      = Cert.Net.outAt (val_main_v87 (F := Ideal) x0 x1 x2 x3 x4 x5) x6 x7 r := by
  unfold Cert.Net.outAt
  rw [val_main_v92_apply, val_main_v89_apply, val_main_v91_apply, val_main_v90_apply, out_bias_index]
  refine congrArg (fun t => t + x7 (ix1 (0 : Fin 1))) (Finset.sum_congr rfl fun k _ => ?_)
  rw [val_main_v88_apply, out_weight_index, out_row]

/-- The reference's result, as an array. -/
theorem out_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (x6 : (⟨S1x64, .f32⟩ : BufTy).Contents (Elt Ideal))
    (x7 : (⟨S1, .f32⟩ : BufTy).Contents (Elt Ideal)) :
    val_main_v92 (F := Ideal) x0 x1 x2 x3 x4 x5 x6 x7
      = Cert.Net.out (val_main_v87 (F := Ideal) x0 x1 x2 x3 x4 x5) x6 x7 := by
  funext i
  obtain ⟨r, u, rfl⟩ : ∃ (r : Fin 100000) (u : Fin 1), i = ix2 r u := ⟨i 0, i 1, eq_ix2 i⟩
  rw [Cert.Net.out_ix2]
  exact out_at x0 x1 x2 x3 x4 x5 x6 x7 r u

/-! ## The whole reference -/

/-- The reference program at the ideal instance is the network, with the reference's own aggregation as the
    aggregation of every layer. -/
theorem result_eq (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 x4 : (⟨S3x64x64, .f32⟩ : BufTy).Contents (Elt Ideal))
    (x5 : (⟨S3x64, .f32⟩ : BufTy).Contents (Elt Ideal)) (x6 : (⟨S1x64, .f32⟩ : BufTy).Contents (Elt Ideal))
    (x7 : (⟨S1, .f32⟩ : BufTy).Contents (Elt Ideal)) :
    val_main_v92 (F := Ideal) x0 x1 x2 x3 x4 x5 x6 x7 = Cert.Net.net (agg x1 x2) x0 x3 x4 x5 x6 x7 := by
  rw [out_eq, layer2_eq, agg2_eq, layer1_eq, agg1_eq, layer0_eq]
  rfl

end Cert.RefNet
end
-- ==== Proof.KNet.lean ====
/-
  The kernel's result array is the network of the arguments.

  The result array at the last boundary is the output projection of three nested layers in the kernel's layout, each
  layer aggregating its input features by the kernel's host operations. The kernel's layout of the parameters reads the
  same stacked weights and biases as the network does, and the kernel's aggregation is the reference's, so the nested
  layers are the network's, one layer at a time from the inside out.
-/
import proofs.«146473_j62079457296460_1_alg».proof.Proof.KHost
import proofs.«146473_j62079457296460_1_alg».proof.Proof.KLayout
import proofs.«146473_j62079457296460_1_alg».proof.Proof.AggSame
import proofs.«146473_j62079457296460_1_alg».proof.Proof.RefNet
import proofs.«146473_j62079457296460_1_alg».proof.Proof.Net

noncomputable section

namespace Cert.KNet

open Cert.KernelIdeal Cert.KernelIdeal.Gen Idealize.ShloMosaic Idealize.ShloMosaic.TcCoe Idealize.SL.Sem
open Cert.KHost Cert.KAgg

variable (m : (ℓ : Loc nD τ sig) → Buf (Elt Ideal) ℓ) (ρ : Dev nD → PrngReg) (c : Dev nD)

/-- The aggregation both programs apply to a feature array, with the launch memory's edge list and edge weights. -/
abbrev A : (Cert.Net.Feat.Idx → EReal) → (Cert.Net.Feat.Idx → EReal) := Cert.RefNet.agg (e1 m c) (ea2 m c)

/-- The network's three layers on the launch memory's arguments. -/
abbrev n1 : Cert.Net.Feat.Idx → EReal := Cert.Net.layer (A m c (x0 m c)) (x0 m c) (w3 m c) (w4 m c) (b5 m c) 0
abbrev n2 : Cert.Net.Feat.Idx → EReal := Cert.Net.layer (A m c (n1 m c)) (n1 m c) (w3 m c) (w4 m c) (b5 m c) 1
abbrev n3 : Cert.Net.Feat.Idx → EReal := Cert.Net.layer (A m c (n2 m c)) (n2 m c) (w3 m c) (w4 m c) (b5 m c) 2

/-- The first layer in the kernel's layout is the network's first layer. -/
theorem h1_eq : h1 m c = n1 m c :=
  (Cert.KLayout.rows_layer0 (kagg (x0 m c) (e1 m c) (ea2 m c)) (x0 m c) (w3 m c) (w4 m c) (b5 m c)).trans
    (by rw [Cert.AggSame.kagg_eq])

/-- The second layer likewise, on the first layer's output. -/
theorem h2_eq : h2 m c = n2 m c := by
  show Cert.KRows.rows (kagg (h1 m c) (e1 m c) (ea2 m c)) (h1 m c) (mat1 (w3 m c)) (mat1 (w4 m c)) (row1 (b5 m c)) = _
  rw [h1_eq]
  exact (Cert.KLayout.rows_layer1 (kagg (n1 m c) (e1 m c) (ea2 m c)) (n1 m c) (w3 m c) (w4 m c) (b5 m c)).trans
    (by rw [Cert.AggSame.kagg_eq])

/-- The third layer likewise, on the second layer's output. -/
theorem h3_eq : h3 m c = n3 m c := by
  show Cert.KRows.rows (kagg (h2 m c) (e1 m c) (ea2 m c)) (h2 m c) (mat2 (w3 m c)) (mat2 (w4 m c)) (row2 (b5 m c)) = _
  rw [h2_eq]
  exact (Cert.KLayout.rows_layer2 (kagg (n2 m c) (e1 m c) (ea2 m c)) (n2 m c) (w3 m c) (w4 m c) (b5 m c)).trans
    (by rw [Cert.AggSame.kagg_eq])

/-- THE KERNEL'S RESULT: the network of the launch memory's arguments. -/
theorem result_eq : W7 m ρ c (Proc.devRef .tc main_v67)
    = Cert.Net.net (A m c) (x0 m c) (w3 m c) (w4 m c) (b5 m c) (w6 m c) (b7 m c) := by
  rw [W7_v67, h3_eq]
  exact Cert.KLayout.project_out (n3 m c) (w6 m c) (b7 m c)

end Cert.KNet

end
-- ==== Proof.lean ====
/-
  A three-layer graph convolution network, a tiled kernel against plain array code, over the extended reals.

  Both programs take node features x (100000 × 64), an edge list, edge weights, three stacked pairs of 64 × 64 weight
  matrices with bias rows, and an output weight row with its bias. A layer aggregates, for every node, the rows of the
  nodes its incoming edges start at, each scaled by the edge's weight, and then forms

      max (agg · Wrelᵀ + x · Wrootᵀ + b, 0);

  after three layers one output channel is read off: x · Woutᵀ + bout. The kernel program does the aggregation on the
  host and the dense part in four regions, each walking ten blocks of 10000 nodes; its layers add the two matrix
  products first and the bias last, through matrices the host transposed beforehand. The reference adds the bias
  between the two products and transposes each matrix where it is used. At the ideal instance a change of float
  format is the identity, a product on the matrix unit into a zero accumulator and the host's contraction are the same
  sum over the 64 input channels, and addition of extended reals is commutative and associative, so both programs
  compute one function of the arguments, `Cert.Net.net`: the kernel side block by block and region by region
  (`Cert.KNet.result_eq`), the reference side operation by operation (`Cert.RefNet.result_eq`). The aggregation is
  the same host operations in both programs and is never opened. No input needs to be finite for this.

  The three frame claims are the generated frame certificates of the two kernel programs and the reference's generated
  run with its result dropped; the idealization changed no operation, so there is nothing to preserve.
-/
import proofs.«146473_j62079457296460_1_alg».proof.Defs
import proofs.«146473_j62079457296460_1_alg».proof.Proof.Gen.Kernel
import proofs.«146473_j62079457296460_1_alg».proof.Proof.Gen.Kernel.Frame
import proofs.«146473_j62079457296460_1_alg».proof.Proof.Gen.KernelIdeal
import proofs.«146473_j62079457296460_1_alg».proof.Proof.Gen.KernelIdeal.Frame
import proofs.«146473_j62079457296460_1_alg».proof.Proof.Gen.ReferenceIdeal
import proofs.«146473_j62079457296460_1_alg».proof.Proof.Gen.Pre_finite_inputs
import proofs.«146473_j62079457296460_1_alg».proof.Proof.Gen.ReferenceIdeal.Run
import proofs.«146473_j62079457296460_1_alg».proof.Proof.Gen.ReferenceIdeal.Read
import proofs.«146473_j62079457296460_1_alg».proof.Proof.KRun
import proofs.«146473_j62079457296460_1_alg».proof.Proof.KNet
import proofs.«146473_j62079457296460_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result arrays at the network of the arguments, from memories that agree on them. -/
theorem algebraic : Cert.algebraic_KernelIdeal_ReferenceIdeal := by
  intro m ρ m' ρ' _ hagree
  refine ⟨fun c => Cert.Net.net (Cert.KNet.A m c) (Cert.KHost.x0 m c) (Cert.KHost.w3 m c) (Cert.KHost.w4 m c)
      (Cert.KHost.b5 m c) (Cert.KHost.w6 m c) (Cert.KHost.b7 m c), ?_, ?_⟩
  · exact (θ_run Cert.KernelIdeal.defs _ _).mono
      (fun r h c => ⟨(h c).1.trans (Cert.KNet.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v92_eq, Cert.RefNet.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
